-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S3x256 : Shape := ⟨2, ![3, 256]⟩
abbrev S3 : Shape := ⟨1, ![3]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S32x4096x256 .f32) (main_arg1 : FVec F S3x256 .f32) (main_arg2 : FVec F S3x256 .f32) (main_arg3 : FVec F S3 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S3x256 .f32 := Host.absf main_arg2
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S32x4096x256 : Shape := ⟨3, ![32, 4096, 256]⟩
abbrev S3x256 : Shape := ⟨2, ![3, 256]⟩
abbrev S3 : Shape := ⟨1, ![3]⟩
abbrev S_ : Shape := ⟨0, ![]⟩
abbrev S1 : Shape := ⟨1, ![1]⟩
abbrev S1x256 : Shape := ⟨2, ![1, 256]⟩
abbrev S256 : Shape := ⟨1, ![256]⟩
abbrev S32x128x256 : Shape := ⟨3, ![32, 128, 256]⟩
abbrev S32x128 : Shape := ⟨2, ![32, 128]⟩
abbrev S32x128x1 : Shape := ⟨3, ![32, 128, 1]⟩
abbrev S128x1 : Shape := ⟨2, ![128, 1]⟩
abbrev S128x256 : Shape := ⟨2, ![128, 256]⟩
abbrev S1x128x256 : Shape := ⟨3, ![1, 128, 256]⟩

abbrev nBuf : Space → Nat
  | .hbm => 60
  | .vmem => 10
  | .smem => 0
  | _ => 0

abbrev bufTy : (tb : Table) → Fin (tcTables nBuf tb) → BufTy
  | .hbm, ⟨0, _⟩ => ⟨S32x4096x256, .f32⟩
  | .hbm, ⟨1, _⟩ => ⟨S3x256, .f32⟩
  | .hbm, ⟨2, _⟩ => ⟨S3x256, .f32⟩
  | .hbm, ⟨3, _⟩ => ⟨S3, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S3, .f32⟩
  | .hbm, ⟨10, _⟩ => ⟨S3, .f32⟩
  | .hbm, ⟨11, _⟩ => ⟨S3, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S3, .f32⟩
  | .hbm, ⟨16, _⟩ => ⟨S3, .f32⟩
  | .hbm, ⟨17, _⟩ => ⟨S1, .f32⟩
  | .hbm, ⟨18, _⟩ => ⟨S_, .f32⟩
  | .hbm, ⟨19, _⟩ => ⟨S1x256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S1, .f32⟩
  | .hbm, ⟨25, _⟩ => ⟨S_, .f32⟩
  | .hbm, ⟨26, _⟩ => ⟨S1x256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S1x256, .f32⟩
  | .hbm, ⟨31, _⟩ => ⟨S1, .f32⟩
  | .hbm, ⟨32, _⟩ => ⟨S_, .f32⟩
  | .hbm, ⟨33, _⟩ => ⟨S1x256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S1x256, .f32⟩
  | .hbm, ⟨38, _⟩ => ⟨S1, .f32⟩
  | .hbm, ⟨39, _⟩ => ⟨S_, .f32⟩
  | .hbm, ⟨40, _⟩ => ⟨S1x256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S1x256, .f32⟩
  | .hbm, ⟨45, _⟩ => ⟨S1, .f32⟩
  | .hbm, ⟨46, _⟩ => ⟨S_, .f32⟩
  | .hbm, ⟨47, _⟩ => ⟨S1x256, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S1, .f32⟩
  | .hbm, ⟨53, _⟩ => ⟨S_, .f32⟩
  | .hbm, ⟨54, _⟩ => ⟨S1x256, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S32x4096x256, .f32⟩
  | .local _ .vmem, ⟨0, _⟩ => ⟨S32x128x256, .f32⟩
  | .local _ .vmem, ⟨1, _⟩ => ⟨S32x128x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S32x128x256, .f32⟩
  | .local _ .vmem, ⟨9, _⟩ => ⟨S32x128x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  slices_S3x256_S1x256_0_0 : S3x256.Slices ![0, 0] S1x256
  shapeCasts_S1x256_S256 : S1x256.ShapeCasts S256
  bcast_S_S256 : S_.BroadcastsInDim S256 (![] : Fin 0 → Fin S256.rank)
  bcast_S256_S1x256_1 : S256.BroadcastsInDim S1x256 (![1] : Fin 1 → Fin S1x256.rank)
  slices_S3_S1_1 : S3.Slices ![1] S1
  slices_S3x256_S1x256_1_0 : S3x256.Slices ![1, 0] S1x256
  slices_S3_S1_2 : S3.Slices ![2] S1
  slices_S3x256_S1x256_2_0 : S3x256.Slices ![2, 0] S1x256
  inb_S32x128x256_S32x128x256_0_0_0 : ∀ a, (![0, 0, 0] : Fin 3 → Nat) a + S32x128x256.size a ≤ S32x128x256.size a
  h_S32x128x256 : 0 < S32x128x256.numel
  reduces_S32x128x256_S32x128 : S32x128x256.Reduces [2] S32x128
  shapeCasts_S32x128_S32x128x1 : S32x128.ShapeCasts S32x128x1
  broadcasts_S32x128x1_S32x128x256 : S32x128x1.Broadcasts S32x128x256
  iota_S128x1_d0_w32 : S128x1.Iotas .tc 32 [0]
  natLt_1_32 : 1 < 32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S128x1_S128x256 : S128x1.Broadcasts S128x256
  broadcasts_S1x256_S128x256 : S1x256.Broadcasts S128x256
  shapeCasts_S128x256_S1x128x256 : S128x256.ShapeCasts S1x128x256
  broadcasts_S1x128x256_S32x128x256 : S1x128x256.Broadcasts S32x128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S32x4096x256.size a
  hwx0_0 : ∀ i : grid0.Coords, EltTy.bits .f32 = 32 ∨ (Rect.block (s := S32x4096x256) S32x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128x256.size a ≤ S32x4096x256.size a
  hwx0_7 : ∀ i : grid0.Coords, EltTy.bits .f32 = 32 ∨ (Rect.block (s := S32x4096x256) S32x128x256.size (cc0_transform_7 i) (hinb0_7 i)).WholeWords (EltTy.packing .f32)

variable [Facts₀]

abbrev win0_0 : Pipeline.Window sig grid0 :=
  Pipeline.Window.ofSpec (Memref.whole main_arg0) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S32x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S3x256 : Shape := ⟨2, ![3, 256]⟩
abbrev S3 : Shape := ⟨1, ![3]⟩
abbrev S_ : Shape := ⟨0, ![]⟩
abbrev S32x4096 : Shape := ⟨2, ![32, 4096]⟩
abbrev S32x4096x1 : Shape := ⟨3, ![32, 4096, 1]⟩
abbrev S1 : Shape := ⟨1, ![1]⟩
abbrev S4096 : Shape := ⟨1, ![4096]⟩
abbrev S1x4096x1 : Shape := ⟨3, ![1, 4096, 1]⟩
abbrev S1x256 : Shape := ⟨2, ![1, 256]⟩
abbrev S256 : Shape := ⟨1, ![256]⟩
abbrev S1x1x256 : Shape := ⟨3, ![1, 1, 256]⟩

abbrev nBuf : Space → Nat
  | .hbm => 136
  | .vmem => 0
  | .smem => 0
  | _ => 0

abbrev hbmTy0_0 (i : Nat) : BufTy := match i % 128 with
  | 0 => ⟨S32x4096x256, .f32⟩
  | 1 => ⟨S3x256, .f32⟩
  | 2 => ⟨S3x256, .f32⟩
  | 3 => ⟨S3, .f32⟩
  | 4 => ⟨S_, .f32⟩
  | 5 => ⟨S32x4096, .f32⟩
  | 6 => ⟨S32x4096x1, .f32⟩
  | 7 => ⟨S_, .f32⟩
  | 8 => ⟨S32x4096x1, .f32⟩
  | 9 => ⟨S32x4096x1, .f32⟩
  | 10 => ⟨S_, .i32⟩
  | 11 => ⟨S_, .f32⟩
  | 12 => ⟨S32x4096, .f32⟩
  | 13 => ⟨S32x4096x1, .f32⟩
  | 14 => ⟨S_, .f32⟩
  | 15 => ⟨S32x4096x1, .f32⟩
  | 16 => ⟨S32x4096x1, .f32⟩
  | 17 => ⟨S32x4096x256, .f32⟩
  | 18 => ⟨S32x4096x256, .f32⟩
  | 19 => ⟨S32x4096x256, .f32⟩
  | 20 => ⟨S_, .f32⟩
  | 21 => ⟨S_, .f32⟩
  | 22 => ⟨S_, .f32⟩
  | 23 => ⟨S_, .f32⟩
  | 24 => ⟨S32x4096, .f32⟩
  | 25 => ⟨S32x4096x1, .f32⟩
  | 26 => ⟨S32x4096x1, .f32⟩
  | 27 => ⟨S32x4096x1, .f32⟩
  | 28 => ⟨S_, .f32⟩
  | 29 => ⟨S_, .i1⟩
  | 30 => ⟨S_, .f32⟩
  | 31 => ⟨S_, .f32⟩
  | 32 => ⟨S32x4096x1, .f32⟩
  | 33 => ⟨S32x4096x1, .f32⟩
  | 34 => ⟨S32x4096x256, .f32⟩
  | 35 => ⟨S32x4096x256, .f32⟩
  | 36 => ⟨S_, .f32⟩
  | 37 => ⟨S32x4096x1, .f32⟩
  | 38 => ⟨S32x4096x1, .f32⟩
  | 39 => ⟨S32x4096x1, .f32⟩
  | 40 => ⟨S32x4096x256, .f32⟩
  | 41 => ⟨S32x4096x256, .f32⟩
  | 42 => ⟨S_, .f32⟩
  | 43 => ⟨S_, .f32⟩
  | 44 => ⟨S_, .f32⟩
  | 45 => ⟨S_, .f32⟩
  | 46 => ⟨S1, .f32⟩
  | 47 => ⟨S3, .f32⟩
  | 48 => ⟨S3, .f32⟩
  | 49 => ⟨S3, .f32⟩
  | 50 => ⟨S_, .f32⟩
  | 51 => ⟨S_, .f32⟩
  | 52 => ⟨S1, .f32⟩
  | 53 => ⟨S3, .f32⟩
  | 54 => ⟨S3, .f32⟩
  | 55 => ⟨S4096, .i32⟩
  | 56 => ⟨S_, .f32⟩
  | 57 => ⟨S32x4096x256, .f32⟩
  | 58 => ⟨S_, .i32⟩
  | 59 => ⟨S4096, .i32⟩
  | 60 => ⟨S4096, .i1⟩
  | 61 => ⟨S_, .i32⟩
  | 62 => ⟨S4096, .i32⟩
  | 63 => ⟨S4096, .i1⟩
  | 64 => ⟨S4096, .i1⟩
  | 65 => ⟨S4096, .f32⟩
  | 66 => ⟨S1x4096x1, .f32⟩
  | 67 => ⟨S1x256, .f32⟩
  | 68 => ⟨S256, .f32⟩
  | 69 => ⟨S1x1x256, .f32⟩
  | 70 => ⟨S32x4096x256, .f32⟩
  | 71 => ⟨S32x4096x256, .f32⟩
  | 72 => ⟨S1x256, .f32⟩
  | 73 => ⟨S256, .f32⟩
  | 74 => ⟨S1x1x256, .f32⟩
  | 75 => ⟨S32x4096x256, .f32⟩
  | 76 => ⟨S32x4096x256, .f32⟩
  | 77 => ⟨S32x4096x256, .f32⟩
  | 78 => ⟨S32x4096x256, .f32⟩
  | 79 => ⟨S1, .f32⟩
  | 80 => ⟨S_, .f32⟩
  | 81 => ⟨S32x4096x256, .f32⟩
  | 82 => ⟨S32x4096x256, .f32⟩
  | 83 => ⟨S32x4096x256, .f32⟩
  | 84 => ⟨S_, .i32⟩
  | 85 => ⟨S4096, .i32⟩
  | 86 => ⟨S4096, .i1⟩
  | 87 => ⟨S_, .i32⟩
  | 88 => ⟨S4096, .i32⟩
  | 89 => ⟨S4096, .i1⟩
  | 90 => ⟨S4096, .i1⟩
  | 91 => ⟨S4096, .f32⟩
  | 92 => ⟨S1x4096x1, .f32⟩
  | 93 => ⟨S1x256, .f32⟩
  | 94 => ⟨S256, .f32⟩
  | 95 => ⟨S1x1x256, .f32⟩
  | 96 => ⟨S32x4096x256, .f32⟩
  | 97 => ⟨S32x4096x256, .f32⟩
  | 98 => ⟨S1x256, .f32⟩
  | 99 => ⟨S256, .f32⟩
  | 100 => ⟨S1x1x256, .f32⟩
  | 101 => ⟨S32x4096x256, .f32⟩
  | 102 => ⟨S32x4096x256, .f32⟩
  | 103 => ⟨S32x4096x256, .f32⟩
  | 104 => ⟨S32x4096x256, .f32⟩
  | 105 => ⟨S1, .f32⟩
  | 106 => ⟨S_, .f32⟩
  | 107 => ⟨S32x4096x256, .f32⟩
  | 108 => ⟨S32x4096x256, .f32⟩
  | 109 => ⟨S32x4096x256, .f32⟩
  | 110 => ⟨S_, .i32⟩
  | 111 => ⟨S4096, .i32⟩
  | 112 => ⟨S4096, .i1⟩
  | 113 => ⟨S_, .i32⟩
  | 114 => ⟨S4096, .i32⟩
  | 115 => ⟨S4096, .i1⟩
  | 116 => ⟨S4096, .i1⟩
  | 117 => ⟨S4096, .f32⟩
  | 118 => ⟨S1x4096x1, .f32⟩
  | 119 => ⟨S1x256, .f32⟩
  | 120 => ⟨S256, .f32⟩
  | 121 => ⟨S1x1x256, .f32⟩
  | 122 => ⟨S32x4096x256, .f32⟩
  | 123 => ⟨S32x4096x256, .f32⟩
  | 124 => ⟨S1x256, .f32⟩
  | 125 => ⟨S256, .f32⟩
  | 126 => ⟨S1x1x256, .f32⟩
  | 127 => ⟨S32x4096x256, .f32⟩
  | _ => ⟨S32x4096x256, .f32⟩

abbrev hbmTy0_1 (i : Nat) : BufTy := match i % 128 with
  | 0 => ⟨S32x4096x256, .f32⟩
  | 1 => ⟨S32x4096x256, .f32⟩
  | 2 => ⟨S32x4096x256, .f32⟩
  | 3 => ⟨S1, .f32⟩
  | 4 => ⟨S_, .f32⟩
  | 5 => ⟨S32x4096x256, .f32⟩
  | 6 => ⟨S32x4096x256, .f32⟩
  | 7 => ⟨S32x4096x256, .f32⟩
  | _ => ⟨S32x4096x256, .f32⟩

abbrev hbmTy (i : Nat) : BufTy := match i / 128 with
  | 0 => hbmTy0_0 i
  | 1 => hbmTy0_1 i
  | _ => ⟨S32x4096x256, .f32⟩

abbrev bufTy : (tb : Table) → Fin (tcTables nBuf tb) → BufTy
  | .hbm, ⟨i, _⟩ => hbmTy i
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_cst_3 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_4 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_5 : Ref sig .tc := ⟨.hbm, 56, rfl⟩
abbrev main_v23 : Ref sig .tc := ⟨.hbm, 57, rfl⟩
abbrev main_c_6 : Ref sig .tc := ⟨.hbm, 58, rfl⟩
abbrev main_v24 : Ref sig .tc := ⟨.hbm, 59, rfl⟩
abbrev main_v25 : Ref sig .tc := ⟨.hbm, 60, rfl⟩
abbrev main_c_7 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_8 : Ref sig .tc := ⟨.hbm, 84, rfl⟩
abbrev main_v48 : Ref sig .tc := ⟨.hbm, 85, rfl⟩
abbrev main_v49 : Ref sig .tc := ⟨.hbm, 86, rfl⟩
abbrev main_c_9 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_10 : Ref sig .tc := ⟨.hbm, 110, rfl⟩
abbrev main_v72 : Ref sig .tc := ⟨.hbm, 111, rfl⟩
abbrev main_v73 : Ref sig .tc := ⟨.hbm, 112, rfl⟩
abbrev main_c_11 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]

class Facts₀ : Prop where
  reducesTo_S32x4096x256_S32x4096_d2 : S32x4096x256.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x256_0_1_2 : S32x4096x1.BroadcastsInDim S32x4096x256 (![0, 1, 2] : Fin 3 → Fin S32x4096x256.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S_S32x4096x256 : S_.BroadcastsInDim S32x4096x256 (![] : Fin 0 → Fin S32x4096x256.rank)
  bcast_S_S4096 : S_.BroadcastsInDim S4096 (![] : Fin 0 → Fin S4096.rank)
  bcast_S4096_S1x4096x1_1 : S4096.BroadcastsInDim S1x4096x1 (![1] : Fin 1 → Fin S1x4096x1.rank)
  slices_S3x256_S1x256_0_0 : S3x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  bcast_S1x4096x1_S32x4096x256_0_1_2 : S1x4096x1.BroadcastsInDim S32x4096x256 (![0, 1, 2] : Fin 3 → Fin S32x4096x256.rank)
  slices_S3_S1_0 : S3.Slices ![0] S1
  shapeCasts_S1_S_ : S1.ShapeCasts S_
  slices_S3x256_S1x256_1_0 : S3x256.Slices ![1, 0] S1x256
  slices_S3_S1_1 : S3.Slices ![1] S1
  slices_S3x256_S1x256_2_0 : S3x256.Slices ![2, 0] S1x256
  slices_S3_S1_2 : S3.Slices ![2] S1

variable [Facts₀]

class Facts : Prop extends Facts₀ where

variable [Facts]
-- ==== Proof.Spec.lean ====
/-
  The function both programs compute, written once over the argument arrays, index by index, on the extended reals.

  For a batch `b`, a time step `t` and a feature `f` (x : [32, 4096, 256]; γ, β : [3, 256]; w : [3], the softmax of the
  aggregation logits):
    mean b t   = (∑ f, x b t f) / 256
    cen  b t f = x b t f - mean b t
    var  b t   = (∑ f, (cen b t f)²) / 256
    xhat b t f = cen b t f · rsqrt (var b t + ε)
  and, with the three window masks m₀ = [2 ≤ t < 4094], m₁ = [5 ≤ t < 4092], m₂ = [10 ≤ t < 4087] (0 or 1):
    the kernel forms     xhat · (0 + m₀·(w₀·γ₀f) + m₁·(w₁·γ₁f) + m₂·(w₂·γ₂f)) + (0 + m₀·(w₀·β₀f) + m₁·(w₁·β₁f) + m₂·(w₂·β₂f)),
    the reference forms  0 + w₀·((xhat·γ₀f + β₀f)·m₀) + w₁·((xhat·γ₁f + β₁f)·m₁) + w₂·((xhat·γ₂f + β₂f)·m₂).
  On real numbers the two are one polynomial identity (distributivity); on the extended reals distributivity needs every
  factor finite, which is where the finiteness of the inputs is used.
-/
import Idealize.ShloMosaic.PureOps.Ideal
import Idealize.ShloMosaic.Lib.ValueIdx

noncomputable section

namespace Cert.LnAgg

open Idealize.ShloMosaic Idealize.ShloMosaic.ValueIdx

abbrev SX : Shape := ⟨3, ![32, 4096, 256]⟩
abbrev SG : Shape := ⟨2, ![3, 256]⟩
abbrev SW : Shape := ⟨1, ![3]⟩
abbrev SW1 : Shape := ⟨1, ![1]⟩
abbrev S0 : Shape := ⟨0, ![]⟩

/-! ## The softmax of the three aggregation logits, as the host computes it -/

theorem hred : SW.ReducesTo [0] S0 := by decide
theorem hnum : 0 < S0.numel := by decide
theorem hb01 : S0.BroadcastsInDim SW1 (![] : Fin 0 → Fin SW1.rank) := by decide
theorem hb13 : SW1.BroadcastsInDim SW (![0] : Fin 1 → Fin SW.rank) := by decide

/-- exp (wt - max wt), the numerators. -/
def softmaxNum (wt : FVec Ideal SW .f32) : FVec Ideal SW .f32 :=
  Host.exp (subf wt (broadcastInDim SW ![0] hb13 (broadcastInDim SW1 ![] hb01
    (maximumf (constant (F := Ideal) S0 .f32 0xFF800000#32)
      (Host.reduce FloatOps.maximumf wt (constant (F := Ideal) S0 .f32 0xFF800000#32) hred hnum)))))

/-- The numerators over their sum. -/
def softmaxW (wt : FVec Ideal SW .f32) : FVec Ideal SW .f32 :=
  Host.divf (softmaxNum wt) (broadcastInDim SW ![0] hb13 (broadcastInDim SW1 ![] hb01
    (Host.reduceAdd (softmaxNum wt) (constant (F := Ideal) S0 .f32 0x00000000#32) hred hnum)))

/-! ## The normalized rows -/

/-- The divisor 256.0 and the ε of the variance, as the programs spell them. -/
def n256 : EReal := Ideal.ofBits .f32 0x43800000#32
def eps : EReal := Ideal.ofBits .f32 0x3727C5AC#32

/-- The row statistics, for an array of any number `T` of time steps (the whole array has 4096, a block 128). -/
def rowSum {T : Nat} (x : (⟨3, ![32, T, 256]⟩ : Shape).Idx → EReal) (b : Fin 32) (t : Fin T) : EReal := ∑ f : Fin 256, x (ix3 b t f)
def mean {T : Nat} (x : (⟨3, ![32, T, 256]⟩ : Shape).Idx → EReal) (b : Fin 32) (t : Fin T) : EReal := Ideal.div (rowSum x b t) n256
def cen {T : Nat} (x : (⟨3, ![32, T, 256]⟩ : Shape).Idx → EReal) (b : Fin 32) (t : Fin T) (f : Fin 256) : EReal := x (ix3 b t f) - mean x b t
def var {T : Nat} (x : (⟨3, ![32, T, 256]⟩ : Shape).Idx → EReal) (b : Fin 32) (t : Fin T) : EReal :=
  Ideal.div (∑ f : Fin 256, cen x b t f * cen x b t f) n256
def xhat {T : Nat} (x : (⟨3, ![32, T, 256]⟩ : Shape).Idx → EReal) (b : Fin 32) (t : Fin T) (f : Fin 256) : EReal :=
  cen x b t f * Ideal.rsqrt (var x b t + eps)

/-- A window's mask at time step `n`: 1 on `lo ≤ n < hi`, else 0. -/
def maskN (lo hi n : Nat) : EReal := if lo ≤ n ∧ n < hi then 1 else 0
def mask (lo hi : Nat) (t : Fin 4096) : EReal := maskN lo hi t.val

/-! ## The two arrangements -/

/-- The kernel's arrangement: one affine map of the normalized row, its coefficients summed over the windows. -/
def kernelOut (x : SX.Idx → EReal) (γ β : SG.Idx → EReal) (w : SW.Idx → EReal) (b : Fin 32) (t : Fin 4096) (f : Fin 256) : EReal :=
  xhat x b t f * (((0 + mask 2 4094 t * (w (ix1 0) * γ (ix2 0 f))) + mask 5 4092 t * (w (ix1 1) * γ (ix2 1 f)))
      + mask 10 4087 t * (w (ix1 2) * γ (ix2 2 f)))
    + (((0 + mask 2 4094 t * (w (ix1 0) * β (ix2 0 f))) + mask 5 4092 t * (w (ix1 1) * β (ix2 1 f)))
      + mask 10 4087 t * (w (ix1 2) * β (ix2 2 f)))

/-- The reference's arrangement: the weighted sum over the windows of each window's masked affine map. -/
def refOut (x : SX.Idx → EReal) (γ β : SG.Idx → EReal) (w : SW.Idx → EReal) (b : Fin 32) (t : Fin 4096) (f : Fin 256) : EReal :=
  ((0 + w (ix1 0) * ((xhat x b t f * γ (ix2 0 f) + β (ix2 0 f)) * mask 2 4094 t))
      + w (ix1 1) * ((xhat x b t f * γ (ix2 1 f) + β (ix2 1 f)) * mask 5 4092 t))
    + w (ix1 2) * ((xhat x b t f * γ (ix2 2 f) + β (ix2 2 f)) * mask 10 4087 t)

/-- The kernel's arrangement on ONE block of 128 time steps starting at time step `t0`: the block `x0` of x, and the six
    coefficient rows (the three w·γ rows, then the three w·β rows) as the block finds them. -/
def blockOut (t0 : Nat) (x0 : (⟨3, ![32, 128, 256]⟩ : Shape).Idx → EReal)
    (g0 g1 g2 b0 b1 b2 : (⟨2, ![1, 256]⟩ : Shape).Idx → EReal) (b : Fin 32) (r : Fin 128) (f : Fin 256) : EReal :=
  xhat x0 b r f * (((0 + maskN 2 4094 (t0 + r.val) * g0 (ix2 0 f)) + maskN 5 4092 (t0 + r.val) * g1 (ix2 0 f))
      + maskN 10 4087 (t0 + r.val) * g2 (ix2 0 f))
    + (((0 + maskN 2 4094 (t0 + r.val) * b0 (ix2 0 f)) + maskN 5 4092 (t0 + r.val) * b1 (ix2 0 f))
      + maskN 10 4087 (t0 + r.val) * b2 (ix2 0 f))

/-- The two arrangements as whole arrays. -/
def kernelArr (x : SX.Idx → EReal) (γ β : SG.Idx → EReal) (w : SW.Idx → EReal) : SX.Idx → EReal :=
  fun j => kernelOut x γ β w (j 0) (j 1) (j 2)
def refArr (x : SX.Idx → EReal) (γ β : SG.Idx → EReal) (w : SW.Idx → EReal) : SX.Idx → EReal :=
  fun j => refOut x γ β w (j 0) (j 1) (j 2)

end Cert.LnAgg

end
-- ==== Proof.KernelHost.lean ====
/-
  The six coefficient rows as the kernel finds them when its one region is entered.

  Before the region the host computes the softmax `w` of the three aggregation logits and, for each window `k`, the two
  rows  w_k · γ_k  and  w_k · β_k  (row `k` of the [3,256] table scaled by entry `k` of the softmax, kept as a [1,256]
  array). Read at feature `f` such a row is  w (k) · table (k, f).
-/
import proofs.«140669_j52630529245619_2_alg».proof.Proof.FrameKernelIdeal
import proofs.«140669_j52630529245619_2_alg».proof.Proof.Spec
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Cert.KernelIdeal.GenP Cert.LnAgg
open Idealize.ShloMosaic Idealize.ShloMosaic.ValueIdx Idealize.ShloMosaic.TcCoe Idealize.SL.Sem

/-- Row `k` of a [3,256] table scaled by entry `k` of a [3] vector, as the host forms it: both sliced out, the scalar
    broadcast over the 256 features, the product, kept as a [1,256] array. -/
def coefRow (off1 : Fin 1 → Nat) (hs1 : S3.Slices off1 S1) (off2 : Fin 2 → Nat) (hs2 : S3x256.Slices off2 S1x256)
    (sw : FVec Ideal S3 .f32) (g : FVec Ideal S3x256 .f32) : FVec Ideal S1x256 .f32 :=
  broadcastInDim (s := S256) S1x256 ![1] bcast_S256_S1x256_1
    (mulf (broadcastInDim (s := S_) S256 ![] bcast_S_S256 (shapeCast S_ (extractStridedSlice S1 off1 sw hs1) shapeCasts_S1_S_))
      (shapeCast S256 (extractStridedSlice S1x256 off2 g hs2) shapeCasts_S1x256_S256))

/-- At feature `f` the row is  sw (k) · g (k, f). -/
theorem coefRow_apply (k : Fin 3) (off1 : Fin 1 → Nat) (hs1 : S3.Slices off1 S1) (off2 : Fin 2 → Nat)
    (hs2 : S3x256.Slices off2 S1x256) (sw : FVec Ideal S3 .f32) (g : FVec Ideal S3x256 .f32)
    (ho1 : off1 0 = k.val) (ho2 : off2 0 = k.val) (ho3 : off2 1 = 0) (f : Fin 256) :
    coefRow off1 hs1 off2 hs2 sw g (ix2 (0 : Fin 1) f) = sw (ix1 k) * g (ix2 k f) := by
  unfold coefRow
  refine (broadcastInDim_apply _ _ _ (ix2 (0 : Fin 1) f) (ix1 f) (fun a => ?_)).trans ?_
  · match a with
    | ⟨0, _⟩ => rfl
  show broadcastInDim (s := S_) S256 ![] bcast_S_S256 _ (ix1 f) * shapeCast S256 _ shapeCasts_S1x256_S256 (ix1 f) = _
  congr 1
  · refine (broadcastInDim_apply _ _ _ (ix1 f) ix0 (fun a => a.elim0)).trans ?_
    refine (shapeCast_apply _ _ ix0 (ix1 (0 : Fin 1)) ?_).trans ?_
    · have h1 : (S1.rowMajor (ix1 (0 : Fin 1))).val < 1 := (S1.rowMajor (ix1 (0 : Fin 1))).isLt
      have h2 : (S_.rowMajor ix0).val < 1 := (S_.rowMajor ix0).isLt
      exact (Nat.lt_one_iff.mp h1).trans (Nat.lt_one_iff.mp h2).symm
    · refine extractStridedSlice_apply _ _ _ _ (ix1 k) (fun a => ?_)
      match a with
      | ⟨0, _⟩ => show k.val = off1 0 + 0; omega
  · refine (shapeCast_apply _ _ (ix1 f) (ix2 (0 : Fin 1) f) ?_).trans ?_
    · rw [Shape.rowMajor_val_two, Shape.rowMajor_val_one]
      show 0 * 256 + f.val = f.val
      omega
    · refine extractStridedSlice_apply _ _ _ _ (ix2 k f) (fun a => ?_)
      match a with
      | ⟨0, _⟩ => show k.val = off2 0 + 0; omega
      | ⟨1, _⟩ => show f.val = off2 1 + f.val; omega

variable (m : (ℓ : Loc nD τ sig) → Buf (Elt Ideal) ℓ)

/-- The softmax the host computes before the region is Spec's `softmaxW` of the logits. -/
abbrev sw (c : Dev nD) : FVec Ideal S3 .f32 := softmaxW (m ((c : Thread nD τ).loc main_arg3))

theorem V_v16 (c : Dev nD) : (V m c main_v16 : S1x256.Idx → EReal)
    = coefRow ![0] slices_S3_S1_0 ![0, 0] slices_S3x256_S1x256_0_0 (sw m c) (m ((c : Thread nD τ).loc main_arg1)) := by
  dsimp only [GenP.V, Gen.hostOps0]; after_results_simp; rfl
theorem V_v23 (c : Dev nD) : (V m c main_v23 : S1x256.Idx → EReal)
    = coefRow ![1] slices_S3_S1_1 ![1, 0] slices_S3x256_S1x256_1_0 (sw m c) (m ((c : Thread nD τ).loc main_arg1)) := by
  dsimp only [GenP.V, Gen.hostOps0]; after_results_simp; rfl
theorem V_v30 (c : Dev nD) : (V m c main_v30 : S1x256.Idx → EReal)
    = coefRow ![2] slices_S3_S1_2 ![2, 0] slices_S3x256_S1x256_2_0 (sw m c) (m ((c : Thread nD τ).loc main_arg1)) := by
  dsimp only [GenP.V, Gen.hostOps0]; after_results_simp; rfl
theorem V_v37 (c : Dev nD) : (V m c main_v37 : S1x256.Idx → EReal)
    = coefRow ![0] slices_S3_S1_0 ![0, 0] slices_S3x256_S1x256_0_0 (sw m c) (m ((c : Thread nD τ).loc main_arg2)) := by
  dsimp only [GenP.V, Gen.hostOps0]; after_results_simp; rfl
theorem V_v44 (c : Dev nD) : (V m c main_v44 : S1x256.Idx → EReal)
    = coefRow ![1] slices_S3_S1_1 ![1, 0] slices_S3x256_S1x256_1_0 (sw m c) (m ((c : Thread nD τ).loc main_arg2)) := by
  dsimp only [GenP.V, Gen.hostOps0]; after_results_simp; rfl
theorem V_v51 (c : Dev nD) : (V m c main_v51 : S1x256.Idx → EReal)
    = coefRow ![2] slices_S3_S1_2 ![2, 0] slices_S3x256_S1x256_2_0 (sw m c) (m ((c : Thread nD τ).loc main_arg2)) := by
  dsimp only [GenP.V, Gen.hostOps0]; after_results_simp; rfl

end Cert.KernelIdeal.Hand

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayloadLayout.lean ====
/-
  Layout steps of a row statistic kept as a unit axis, at rank three, and the lane sum, each read at an index given
  by its coordinates.

  A sum over the last axis of an `[a, b, c]` array that keeps the axis produces an `[a, b]` array, casts it to
  `[a, b, 1]` and broadcasts it back over the `c` entries of each row. A coefficient array `[b, c]` shared by all
  `a` batches is cast to `[1, b, c]` and broadcast over the leading axis. The facts below say what each step does
  to one entry:
    • the sum over the last axis reads, at `(p, q)`, the sum over `k` of the operand at `(p, q, k)`;
    • `[a, b]` cast to `[a, b, 1]` reads, at `(p, q, u)`, the operand at `(p, q)`, whatever the unit coordinate `u`;
    • `[a, b, 1]` broadcast to `[a, b, c]` reads, at `(p, q, k)`, the operand at `(p, q, 0)`;
    • `[1, b, c]` broadcast to `[a, b, c]` reads, at `(p, q, k)`, the operand at `(0, q, k)`.
-/
import Idealize.ShloMosaic.Lib.Pipeline.Value
import Idealize.ShloMosaic.Lib.ValueIdx
import Idealize.ShloMosaic.PureOps.Ideal.Laws

open scoped BigOperators

namespace Cert.KernelIdeal.Payload

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- The sum over the last axis of an `[a, b, c]` array of extended reals reads, at `(p, q)`, the sum over `k` of the
    operand at `(p, q, k)`. The sum starts from the zero word (the hypothesis `hacc` only records which word that is). -/
theorem laneSum_apply {a b c : ℕ} (v : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ v 0x00000000#32 h hφ hacc (ix2 p q) = ∑ k : Fin c, v (ix3 p q k) := by
  refine (Ideal.multiReduction_add_single v 0x00000000#32 h hφ hacc (ix2 p q)).trans ?_
  refine Finset.sum_congr rfl fun k _ => congrArg v ?_
  funext ax
  match ax with
  | ⟨0, _⟩ => rfl
  | ⟨1, _⟩ => rfl
  | ⟨2, _⟩ => rfl

end Cert.KernelIdeal.Payload
-- ==== Proof.KernelPayloadNorm.lean ====
/-
  The normalized row, as the kernel's body computes it on one block, read at one entry.

  On a block `x : [32, 128, 256]` of extended reals the body forms, row by row over the 256 features,
    s      = the sum of the row, kept as a unit axis,          m = s / 256, broadcast back over the row,
    c      = x - m,
    q      = the sum of c·c over the row, kept as a unit axis, v = q / 256,
    result = c · rsqrt (v + ε), the rsqrt broadcast back over the row.
  Every step is either pointwise or one of the layout steps whose reading at an entry is known, so the result at
  `(b, r, f)` is the normalized entry `xhat x b r f` of the specification, by reading the steps from the outside in.
-/
import proofs.«140669_j52630529245619_2_alg».proof.Proof.Gen.KernelIdeal.Skeleton
import proofs.«140669_j52630529245619_2_alg».proof.Proof.Spec
import proofs.«140669_j52630529245619_2_alg».proof.Proof.KernelPayloadLayout

open scoped BigOperators

noncomputable section

namespace Cert.KernelIdeal.Payload

open Cert.KernelIdeal Cert.KernelIdeal.Gen Cert.LnAgg Idealize.ShloMosaic Idealize.ShloMosaic.ValueIdx

/-- A row statistic kept as a unit axis: the sum over the features of a block, cast to a column and divided by a
    constant, reads at `(b, r, u)` the row's sum divided by the constant. -/
theorem rowStat_apply (v : FVec Ideal S32x128x256 .f32) (hred : S32x128x256.Reduces [2] S32x128)
    (hφ : FKind.Formats .f32) (hacc : (0x00000000#32 : BitVec 32) = 0x00000000#32)
    (hsc : S32x128.ShapeCasts S32x128x1) (c : EReal) (b : Fin 32) (r : Fin 128) (u : Fin 1) :
    divf (shapeCast S32x128x1 (multiReduction .add [2] S32x128 v 0x00000000#32 hred hφ hacc) hsc)
        (broadcast S32x128x1 c) (ix3 b r u)
      = Ideal.div (∑ f : Fin 256, v (ix3 b r f)) c := by
  refine (divf_apply _ _ _).trans ?_
  refine congrArg (fun z => Ideal.div z c) ?_
  refine (shapeCast_ab_ab1_apply _ hsc b r u).trans ?_
  exact laneSum_apply v hred hφ hacc b r

/-- The centred block: the block minus its row means, as the body spells it. -/
def cenV (x0 : Vec Ideal S32x128x256 .f32) : FVec Ideal S32x128x256 .f32 :=
  subf x0 (broadcastTo S32x128x256
    (divf (shapeCast S32x128x1
        (multiReduction .add [2] S32x128 x0 0x00000000#32 reduces_S32x128x256_S32x128 (.inl rfl) rfl)
        shapeCasts_S32x128_S32x128x1)
      (broadcast S32x128x1 (Scalar.ofBits .f32 0x43800000#32)))
    broadcasts_S32x128x1_S32x128x256)

/-- The centred block at `(b, r, f)` is the entry minus its row's mean. -/
theorem cenV_apply (x0 : Vec Ideal S32x128x256 .f32) (b : Fin 32) (r : Fin 128) (f : Fin 256) :
    cenV x0 (ix3 b r f) = cen x0 b r f := by
  unfold cenV cen mean rowSum n256
  refine (subf_apply _ _ _).trans ?_
  refine congrArg (fun z => x0 (ix3 b r f) - z) ?_
  refine (broadcastTo_ab1_abc_apply _ _ b r f).trans ?_
  exact rowStat_apply x0 _ _ _ _ _ b r 0

/-- The body's normalized block is the centred block times the broadcast reciprocal root of the row variance plus ε
    (the body's chain of steps with the centred block named). -/
theorem pay1_eq (x0 : Vec Ideal S32x128x256 .f32) :
    k0_pay1 (F := Ideal) x0 = mulf (cenV x0) (broadcastTo S32x128x256
      (rsqrt (addf
        (divf (shapeCast S32x128x1
            (multiReduction .add [2] S32x128 (mulf (cenV x0) (cenV x0)) 0x00000000#32 reduces_S32x128x256_S32x128 (.inl rfl) rfl)
            shapeCasts_S32x128_S32x128x1)
          (broadcast S32x128x1 (Scalar.ofBits .f32 0x43800000#32)))
        (broadcast S32x128x1 (Scalar.ofBits .f32 0x3727C5AC#32))))
      broadcasts_S32x128x1_S32x128x256) := rfl

/-- The body's normalized block at `(b, r, f)` is the specification's normalized entry. -/
theorem pay1_apply (x0 : Vec Ideal S32x128x256 .f32) (b : Fin 32) (r : Fin 128) (f : Fin 256) :
    k0_pay1 (F := Ideal) x0 (ix3 b r f) = xhat x0 b r f := by
  rw [pay1_eq]
  unfold xhat var eps n256
  refine (mulf_apply _ _ _).trans ?_
  refine congrArg₂ (fun y z => y * z) (cenV_apply x0 b r f) ?_
  refine (broadcastTo_ab1_abc_apply _ _ b r f).trans ?_
  show Ideal.rsqrt (_ + _) = _
  refine congrArg (fun z => Ideal.rsqrt (z + Ideal.ofBits .f32 0x3727C5AC#32)) ?_
  refine (rowStat_apply _ _ _ _ _ _ b r 0).trans ?_
  refine congrArg (fun z => Ideal.div z (Ideal.ofBits .f32 0x43800000#32)) ?_
  refine Finset.sum_congr rfl fun k _ => ?_
  refine (mulf_apply _ _ _).trans ?_
  rw [cenV_apply]

end Cert.KernelIdeal.Payload

end
-- ==== Proof.KernelPayloadMask.lean ====
/-
  The window masks, as the kernel's body computes them, read at one row.

  The body numbers the rows of its block by the 32-bit words `t0·128 + r` (`t0` the block's number along the time axis,
  `r` the row within the block), compares each with a window's two bounds as signed integers, and turns the
  conjunction of the two bits into a float. The words stay below 2³¹, so the signed reading of each word is the number
  itself, the two comparisons are the comparisons of numbers, and the float is the window's indicator `maskN lo hi`.
-/
import proofs.«140669_j52630529245619_2_alg».proof.Proof.Gen.KernelIdeal.Skeleton
import proofs.«140669_j52630529245619_2_alg».proof.Proof.Spec
import Idealize.ShloMosaic.Lib.Pipeline.Value

noncomputable section

namespace Cert.KernelIdeal.Payload

open Cert.KernelIdeal Cert.KernelIdeal.Gen Cert.LnAgg Idealize.ShloMosaic Idealize.ShloMosaic.ValueIdx

/-- The 32-bit word of a number below 2³¹ reads, signed, that number. -/
theorem toInt_ofNat_small (n : Nat) (hn : n < 2 ^ 31) : (BitVec.ofNat 32 n).toInt = (n : Int) := by
  have h1 : (BitVec.ofNat 32 n).toNat = n := by rw [BitVec.toNat_ofNat]; omega
  rw [BitVec.toInt_eq_toNat_of_lt (by omega), h1]

/-- The two signed comparisons of the word of `n` with the words of `lo` and `hi`, their conjunction widened to 32 bits
    and read as a signed integer, give the indicator of `lo ≤ n < hi`. -/
theorem maskWord_eq (lo hi n : Nat) (hlo : lo < 2 ^ 31) (hhi : hi < 2 ^ 31) (hn : n < 2 ^ 31) :
    ((((IntOp.andi (IntOp.cmpi .sge (BitVec.ofNat 32 n) (BitVec.ofNat 32 lo))
        (IntOp.cmpi .slt (BitVec.ofNat 32 n) (BitVec.ofNat 32 hi))).setWidth 32).toInt : ℝ) : EReal)
      = maskN lo hi n := by
  unfold maskN
  by_cases hc : lo ≤ n ∧ n < hi
  · have h1 : IntOp.andi (IntOp.cmpi .sge (BitVec.ofNat 32 n) (BitVec.ofNat 32 lo))
        (IntOp.cmpi .slt (BitVec.ofNat 32 n) (BitVec.ofNat 32 hi)) = 1#1 :=
      IntOp.andi_eq_one.2
        ⟨IntOp.cmpi_sge.2 (by rw [toInt_ofNat_small lo hlo, toInt_ofNat_small n hn]; exact_mod_cast hc.1),
          IntOp.cmpi_slt.2 (by rw [toInt_ofNat_small hi hhi, toInt_ofNat_small n hn]; exact_mod_cast hc.2)⟩
    have h2 : ((1#1 : BitVec 1).setWidth 32).toInt = 1 := by decide
    rw [if_pos hc, h1, h2]
    simp
  · have h0 : IntOp.andi (IntOp.cmpi .sge (BitVec.ofNat 32 n) (BitVec.ofNat 32 lo))
        (IntOp.cmpi .slt (BitVec.ofNat 32 n) (BitVec.ofNat 32 hi)) = 0#1 :=
      eq_zero_of_ne_one fun h => hc (by
        obtain ⟨h1, h2⟩ := IntOp.andi_eq_one.1 h
        have a := IntOp.cmpi_sge.1 h1
        have b := IntOp.cmpi_slt.1 h2
        rw [toInt_ofNat_small lo hlo, toInt_ofNat_small n hn] at a
        rw [toInt_ofNat_small hi hhi, toInt_ofNat_small n hn] at b
        exact ⟨by exact_mod_cast a, by exact_mod_cast b⟩)
    have h2 : ((0#1 : BitVec 1).setWidth 32).toInt = 0 := by decide
    rw [if_neg hc, h0, h2]
    simp

/-- A window's mask column: where the column of row numbers holds the word of `n`, the float made of the two
    comparisons' conjunction is the window's indicator at `n`. -/
theorem maskCol_apply (lo hi n : Nat) (hlo : lo < 2 ^ 31) (hhi : hi < 2 ^ 31) (hn : n < 2 ^ 31)
    (v20 : IVec S128x1 32) (h132 : 1 < 32) (r : Fin 128) (u : Fin 1) (hv : v20 (ix2 r u) = BitVec.ofNat 32 n) :
    (sitofp .f32 (extui 32 (andi (cmpi .sge v20 (broadcast S128x1 (BitVec.ofNat 32 lo)))
        (cmpi .slt v20 (broadcast S128x1 (BitVec.ofNat 32 hi)))) h132) : FVec Ideal S128x1 .f32) (ix2 r u)
      = maskN lo hi n := by
  show ((((IntOp.andi (IntOp.cmpi .sge (v20 (ix2 r u)) (BitVec.ofNat 32 lo))
        (IntOp.cmpi .slt (v20 (ix2 r u)) (BitVec.ofNat 32 hi))).setWidth 32).toInt : ℝ) : EReal) = _
  rw [hv]
  exact maskWord_eq lo hi n hlo hhi hn

/-- The column of row numbers: row `r` of block `t0` holds the word of `t0·128 + r`. -/
theorem pay2_apply (i : grid0.Coords) (r : Fin 128) (u : Fin 1) :
    k0_pay2 i (ix2 r u) = BitVec.ofNat 32 ((i 0).val * 128 + r.val) := by
  show IntOp.addi (Scalar.muli (BitVec.ofNat 32 (i 0).val) 128#32)
      (iota .tc S128x1 32 [0] iota_S128x1_d0_w32 (ix2 r u)) = _
  rw [iota_single_apply]
  show BitVec.ofNat 32 (i 0).val * BitVec.ofNat 32 128 + BitVec.ofNat 32 r.val = _
  rw [BitVec.ofNat_add, BitVec.ofNat_mul]

/-- A row number of a block is below 4096 (there are 32 blocks of 128 rows), hence below 2³¹. -/
theorem rowNumber_lt (i : grid0.Coords) (r : Fin 128) : (i 0).val * 128 + r.val < 2 ^ 31 := by
  have hi : (i 0).val < 32 := (i 0).isLt
  have hr := r.isLt
  omega

/-- The first window's mask column, which the body computes from its own column of row numbers. -/
theorem pay3_apply (i : grid0.Coords) (r : Fin 128) (u : Fin 1) :
    k0_pay3 (F := Ideal) i (ix2 r u) = maskN 2 4094 ((i 0).val * 128 + r.val) :=
  maskCol_apply 2 4094 _ (by norm_num) (by norm_num) (rowNumber_lt i r) (k0_pay2 i) natLt_1_32 r u (pay2_apply i r u)

end Cert.KernelIdeal.Payload

end
-- ==== Proof.KernelPayload.lean ====
/-
  The kernel body's arithmetic on one block, read at one entry.

  With the normalized block `n` (the row statistics of the block `x`), the column of row numbers, and the six
  coefficient rows `g₀ g₁ g₂` (scales) and `b₀ b₁ b₂` (shifts), the body accumulates, window by window,
    A = 0 + m₀·g₀ + m₁·g₁ + m₂·g₂        B = 0 + m₀·b₀ + m₁·b₁ + m₂·b₂
  over `[128, 256]` (each mask a column broadcast over the features, each coefficient a row broadcast over the rows),
  lifts both to every batch and stores `n · A + B`. Each accumulation step and the final lift are read at an entry by
  the layout facts; the masks and the normalized block by their own readings. The outcome is the specification's
  `blockOut` at the block's first time step `t0·128`.
-/
import proofs.«140669_j52630529245619_2_alg».proof.Proof.Gen.KernelIdeal.Skeleton
import proofs.«140669_j52630529245619_2_alg».proof.Proof.Spec
import proofs.«140669_j52630529245619_2_alg».proof.Proof.LibColumnLayout
import proofs.«140669_j52630529245619_2_alg».proof.Proof.KernelPayloadLayout
import proofs.«140669_j52630529245619_2_alg».proof.Proof.KernelPayloadNorm
import proofs.«140669_j52630529245619_2_alg».proof.Proof.KernelPayloadMask
import Idealize.ShloMosaic.Lib.ValueLayout

noncomputable section

namespace Cert.KernelIdeal.Payload

open Cert.KernelIdeal Cert.KernelIdeal.Gen Cert.LnAgg Idealize.ShloMosaic Idealize.ShloMosaic.ValueIdx

/-- One accumulation step of a coefficient: the accumulator plus a mask column times a coefficient row, both broadcast
    over `[128, 256]`, reads at `(r, f)` the accumulator's entry plus the mask of row `r` times the coefficient of
    feature `f`. -/
theorem coefStep_apply (acc : FVec Ideal S128x256 .f32) (m : FVec Ideal S128x1 .f32) (g : Vec Ideal S1x256 .f32)
    (hsc : S1x256.ShapeCasts S1x256) (hb1 : S128x1.Broadcasts S128x256) (hb2 : S1x256.Broadcasts S128x256)
    (r : Fin 128) (f : Fin 256) :
    addf acc (mulf (broadcastTo S128x256 m hb1) (broadcastTo S128x256 (shapeCast S1x256 g hsc) hb2)) (ix2 r f)
      = acc (ix2 r f) + m (ix2 r (0 : Fin 1)) * g (ix2 (0 : Fin 1) f) := by
  refine (addf_apply _ _ _).trans ?_
  refine congrArg (fun z => acc (ix2 r f) + z) ?_
  refine (mulf_apply _ _ _).trans ?_
  refine congrArg₂ (fun y z => y * z) (broadcastTo_a1_ab_apply m hb1 r f) ?_
  refine (broadcastTo_1b_ab_apply _ hb2 r f).trans ?_
  rw [shapeCast_self]

/-- The first window's scale term: zero plus the first mask times the first scale row. -/
theorem pay4_apply (i : grid0.Coords) (x1 : Vec Ideal S1x256 .f32) (r : Fin 128) (f : Fin 256) :
    k0_pay4 (F := Ideal) i x1 (ix2 r f)
      = 0 + maskN 2 4094 ((i 0).val * 128 + r.val) * x1 (ix2 (0 : Fin 1) f) := by
  refine (coefStep_apply (broadcast S128x256 (Scalar.ofBits .f32 0x00000000#32)) (k0_pay3 (F := Ideal) i) x1
    _ _ _ r f).trans ?_
  rw [pay3_apply]
  show Ideal.ofBits .f32 0x00000000#32 + _ = _
  rw [Ideal.ofBits_zero_f32]

/-- The first window's shift term: zero plus the first mask times the first shift row. -/
theorem pay5_apply (i : grid0.Coords) (x4 : Vec Ideal S1x256 .f32) (r : Fin 128) (f : Fin 256) :
    k0_pay5 (F := Ideal) i x4 (ix2 r f)
      = 0 + maskN 2 4094 ((i 0).val * 128 + r.val) * x4 (ix2 (0 : Fin 1) f) := by
  refine (coefStep_apply (broadcast S128x256 (Scalar.ofBits .f32 0x00000000#32)) (k0_pay3 (F := Ideal) i) x4
    _ _ _ r f).trans ?_
  rw [pay3_apply]
  show Ideal.ofBits .f32 0x00000000#32 + _ = _
  rw [Ideal.ofBits_zero_f32]

/-- A coefficient array `[128, 256]` lifted to every batch reads at `(b, r, f)` its entry `(r, f)`. -/
theorem lift_apply (c : FVec Ideal S128x256 .f32) (hsc : S128x256.ShapeCasts S1x128x256)
    (hb : S1x128x256.Broadcasts S32x128x256) (b : Fin 32) (r : Fin 128) (f : Fin 256) :
    broadcastTo S32x128x256 (shapeCast S1x128x256 c hsc) hb (ix3 b r f) = c (ix2 r f) :=
  (broadcastTo_1bc_abc_apply _ hb b r f).trans (shapeCast_ab_1ab_apply c hsc 0 r f)

/-- The last step of the body at `(b, r, f)`, over any normalized block `n`, first-window terms `A₀`, `B₀` and column of
    row numbers holding the word of `t` at row `r`: `n · (A₀ + m₁·g₁ + m₂·g₂) + (B₀ + m₁·b₁ + m₂·b₂)`. -/
theorem pay6_apply (v16 : FVec Ideal S32x128x256 .f32) (v20 : IVec S128x1 32) (v35 v41 : FVec Ideal S128x256 .f32)
    (v49 v55 v68 v74 : Vec Ideal S1x256 .f32) (t : Nat) (ht : t < 2 ^ 31) (b : Fin 32) (r : Fin 128) (f : Fin 256)
    (hv : v20 (ix2 r (0 : Fin 1)) = BitVec.ofNat 32 t) :
    k0_pay6 (F := Ideal) v16 v20 v35 v41 v49 v55 v68 v74 (ix3 b r f)
      = v16 (ix3 b r f) * ((v35 (ix2 r f) + maskN 5 4092 t * v49 (ix2 (0 : Fin 1) f))
            + maskN 10 4087 t * v68 (ix2 (0 : Fin 1) f))
          + ((v41 (ix2 r f) + maskN 5 4092 t * v55 (ix2 (0 : Fin 1) f))
            + maskN 10 4087 t * v74 (ix2 (0 : Fin 1) f)) := by
  have h5 := maskCol_apply 5 4092 t (by norm_num) (by norm_num) ht v20 natLt_1_32 r 0 hv
  have h10 := maskCol_apply 10 4087 t (by norm_num) (by norm_num) ht v20 natLt_1_32 r 0 hv
  refine (addf_apply _ _ _).trans ?_
  refine congrArg₂ (fun y z => y + z) ?_ ?_
  · refine (mulf_apply _ _ _).trans ?_
    refine congrArg (fun z => v16 (ix3 b r f) * z) ?_
    refine (lift_apply _ _ _ b r f).trans ?_
    refine (coefStep_apply _ _ _ _ _ _ r f).trans ?_
    rw [h10]
    refine congrArg (fun z => z + maskN 10 4087 t * v68 (ix2 (0 : Fin 1) f)) ?_
    refine (coefStep_apply _ _ _ _ _ _ r f).trans ?_
    rw [h5]
  · refine (lift_apply _ _ _ b r f).trans ?_
    refine (coefStep_apply _ _ _ _ _ _ r f).trans ?_
    rw [h10]
    refine congrArg (fun z => z + maskN 10 4087 t * v74 (ix2 (0 : Fin 1) f)) ?_
    refine (coefStep_apply _ _ _ _ _ _ r f).trans ?_
    rw [h5]

/-- THE BODY AT AN ENTRY: on block `t0 = i 0` of the time axis, with the block `x0` of the input and the six coefficient
    rows, the value the body stores at `(b, r, f)` is the specification's block arrangement at the block's first time
    step `t0·128`. -/
theorem payload_apply (i : grid0.Coords) (x0 : Vec Ideal S32x128x256 .f32) (x1 x2 x3 x4 x5 x6 : Vec Ideal S1x256 .f32)
    (b : Fin 32) (r : Fin 128) (f : Fin 256) :
    k0_pay6 (F := Ideal) (k0_pay1 x0) (k0_pay2 i) (k0_pay4 i x1) (k0_pay5 i x4) x2 x5 x3 x6 (ix3 b r f)
      = blockOut ((i 0).val * 128) x0 x1 x2 x3 x4 x5 x6 b r f := by
  rw [pay6_apply _ _ _ _ _ _ _ _ ((i 0).val * 128 + r.val) (rowNumber_lt i r) b r f (pay2_apply i r 0),
    pay1_apply, pay4_apply, pay5_apply]
  rfl

end Cert.KernelIdeal.Payload

end
-- ==== Proof.KernelValue.lean ====
/-
  From the blocks to the whole array.

  The grid has 32 points; at point `t` the pipeline hands the body rows `128·t … 128·t + 127` of `x` (all 32 batches, all 256
  features) and the six coefficient rows whole, and writes the body's result back to the same rows of the output. So an
  entry (b, s, f) of the output is written at the one point `t = s / 128`, from row `r = s % 128` of that point's block,
  and the body's result there (the block form of the arrangement) is the kernel's arrangement `kernelOut` of the whole
  arrays at (b, s, f): the row statistics of a block's row are those of the array's row, the masks read the absolute time
  step `128·t + r = s`, and the coefficient rows are  w_k · γ_k  and  w_k · β_k.
-/
import proofs.«140669_j52630529245619_2_alg».proof.Proof.FrameKernelIdeal
import proofs.«140669_j52630529245619_2_alg».proof.Proof.Spec
import proofs.«140669_j52630529245619_2_alg».proof.Proof.KernelHost
import proofs.«140669_j52630529245619_2_alg».proof.Proof.KernelPayload
import Idealize.ShloMosaic.Lib.Pipeline.Value
import Idealize.ShloMosaic.Lib.ValueIdx

noncomputable section

namespace Cert.KernelIdeal.Hand

open Cert.KernelIdeal Cert.KernelIdeal.Gen Cert.KernelIdeal.GenP Cert.LnAgg
open Idealize.ShloMosaic Idealize.ShloMosaic.ValueIdx Idealize.ShloMosaic.TcCoe Idealize.SL.Sem
open Idealize.ShloMosaic.Pipeline (Dat)

/-! ## A block's row has the array row's statistics -/

/-- If row (b, r) of a block is row (b, s) of the array, the normalized entries agree. -/
theorem xhat_congr {T T' : Nat} (x0 : (⟨3, ![32, T, 256]⟩ : Shape).Idx → EReal) (X : (⟨3, ![32, T', 256]⟩ : Shape).Idx → EReal)
    (b : Fin 32) (r : Fin T) (s : Fin T') (h : ∀ f : Fin 256, x0 (ix3 b r f) = X (ix3 b s f)) (f : Fin 256) :
    xhat x0 b r f = xhat X b s f := by
  have hsum : rowSum x0 b r = rowSum X b s := Finset.sum_congr rfl fun f _ => h f
  have hmean : mean x0 b r = mean X b s := by unfold mean; rw [hsum]
  have hcen : ∀ f, cen x0 b r f = cen X b s f := fun f => by unfold cen; rw [h f, hmean]
  have hvar : var x0 b r = var X b s := by
    unfold var; exact congrArg (Ideal.div · n256) (Finset.sum_congr rfl fun f _ => by rw [hcen f])
  unfold xhat; rw [hcen f, hvar]

/-! ## One point's result at one entry -/

/-- The body's result at entry (b, r, f) of point `n`'s block is the kernel's arrangement of the whole arrays at
    (b, s, f) with `s = 128·n + r`, given what the block and the six rows hold. -/
theorem point_eq (i : grid0.Coords) (n : Nat) (hi : (i 0).val = n)
    (x0 : Vec Ideal S32x128x256 .f32) (x1 x2 x3 x4 x5 x6 : Vec Ideal S1x256 .f32)
    (X : SX.Idx → EReal) (Γ B : SG.Idx → EReal) (W : SW.Idx → EReal)
    (b : Fin 32) (r : Fin 128) (f : Fin 256) (s : Fin 4096) (hs : s.val = n * 128 + r.val)
    (h0 : ∀ f' : Fin 256, x0 (ix3 b r f') = X (ix3 b s f'))
    (h1 : x1 (ix2 (0 : Fin 1) f) = W (ix1 0) * Γ (ix2 0 f)) (h2 : x2 (ix2 (0 : Fin 1) f) = W (ix1 1) * Γ (ix2 1 f))
    (h3 : x3 (ix2 (0 : Fin 1) f) = W (ix1 2) * Γ (ix2 2 f)) (h4 : x4 (ix2 (0 : Fin 1) f) = W (ix1 0) * B (ix2 0 f))
    (h5 : x5 (ix2 (0 : Fin 1) f) = W (ix1 1) * B (ix2 1 f)) (h6 : x6 (ix2 (0 : Fin 1) f) = W (ix1 2) * B (ix2 2 f)) :
    k0_pay6 (F := Ideal) (k0_pay1 x0) (k0_pay2 i) (k0_pay4 i x1) (k0_pay5 i x4) x2 x5 x3 x6 (ix3 b r f)
      = kernelOut X Γ B W b s f := by
  rw [Cert.KernelIdeal.Payload.payload_apply]
  unfold blockOut kernelOut mask
  rw [hi, ← hs, xhat_congr x0 X b r s h0 f, h1, h2, h3, h4, h5, h6]

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The windows' index maps, decided over the 32 grid points -/

/-- The two big windows move along the time axis with the point; the point's grid coordinate is its number. -/
theorem idx_facts : ∀ t : Fin cfg0.N,
    (win0_0.index t (0 : Fin 3) = 0 ∧ win0_0.index t (1 : Fin 3) = t.val ∧ win0_0.index t (2 : Fin 3) = 0)
    ∧ (win0_7.index t (0 : Fin 3) = 0 ∧ win0_7.index t (1 : Fin 3) = t.val ∧ win0_7.index t (2 : Fin 3) = 0)
    ∧ ((grid0.coords t (0 : Fin 1)).val = t.val) :=
  (by decide +kernel : ∀ t : Fin grid0.N, _)

/-- The six coefficient windows stay on their one block. -/
structure RowIdx (t : Fin cfg0.N) : Prop where
  «1» : win0_1.index t (0 : Fin 2) = 0 ∧ win0_1.index t (1 : Fin 2) = 0
  «2» : win0_2.index t (0 : Fin 2) = 0 ∧ win0_2.index t (1 : Fin 2) = 0
  «3» : win0_3.index t (0 : Fin 2) = 0 ∧ win0_3.index t (1 : Fin 2) = 0
  «4» : win0_4.index t (0 : Fin 2) = 0 ∧ win0_4.index t (1 : Fin 2) = 0
  «5» : win0_5.index t (0 : Fin 2) = 0 ∧ win0_5.index t (1 : Fin 2) = 0
  «6» : win0_6.index t (0 : Fin 2) = 0 ∧ win0_6.index t (1 : Fin 2) = 0

theorem idx_rows_aux : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem idx_rows (t : Fin cfg0.N) : RowIdx t :=
  ⟨(idx_rows_aux t).1, (idx_rows_aux t).2.1, (idx_rows_aux t).2.2.1, (idx_rows_aux t).2.2.2.1, (idx_rows_aux t).2.2.2.2.1,
    (idx_rows_aux t).2.2.2.2.2⟩

/-! ## What each window's block holds at a point -/

/-- Row (b, r) of the first window's block at point `t` is row (b, 128·t + r) of `x`. -/
theorem iblk0_apply (c : Dev nD) (t : Fin cfg0.N) (b : Fin 32) (r : Fin 128) (f : Fin 256) (s : Fin 4096)
    (hs : s.val = t.val * 128 + r.val) :
    (iblk m c 0 t : Vec Ideal S32x128x256 .f32) (ix3 b r f)
      = (m ((c : Thread nD τ).loc main_arg0) : S32x4096x256.Idx → EReal) (ix3 b s f) := by
  obtain ⟨⟨e0, e1, e2⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 32 + 1 * b.val = b.val; rw [e0]; omega
  | ⟨1, _⟩ => show win0_0.index t (1 : Fin 3) * 128 + 1 * r.val = s.val; rw [e1, hs]; omega
  | ⟨2, _⟩ => show win0_0.index t (2 : Fin 3) * 256 + 1 * f.val = f.val; rw [e2]; omega

/-- A coefficient window's block is its whole [1,256] array, as the host left it. -/
theorem iblk1_apply (c : Dev nD) (t : Fin cfg0.N) (f : Fin 256) :
    (iblk m c 1 t : Vec Ideal S1x256 .f32) (ix2 (0 : Fin 1) f) = (V m c main_v16 : S1x256.Idx → EReal) (ix2 (0 : Fin 1) f) := by
  obtain ⟨e0, e1⟩ := (idx_rows t).1
  unfold iblk
  rw [View.read_apply]
  show V m c main_v16 _ = V m c main_v16 _
  congr 1
  funext a
  apply Fin.ext
  match a with
  | ⟨0, _⟩ => show win0_1.index t (0 : Fin 2) * 1 + 1 * 0 = 0; rw [e0]
  | ⟨1, _⟩ => show win0_1.index t (1 : Fin 2) * 256 + 1 * f.val = f.val; rw [e1]; omega
theorem iblk2_apply (c : Dev nD) (t : Fin cfg0.N) (f : Fin 256) :
    (iblk m c 2 t : Vec Ideal S1x256 .f32) (ix2 (0 : Fin 1) f) = (V m c main_v23 : S1x256.Idx → EReal) (ix2 (0 : Fin 1) f) := by
  obtain ⟨e0, e1⟩ := (idx_rows t).2
  unfold iblk
  rw [View.read_apply]
  show V m c main_v23 _ = V m c main_v23 _
  congr 1
  funext a
  apply Fin.ext
  match a with
  | ⟨0, _⟩ => show win0_2.index t (0 : Fin 2) * 1 + 1 * 0 = 0; rw [e0]
  | ⟨1, _⟩ => show win0_2.index t (1 : Fin 2) * 256 + 1 * f.val = f.val; rw [e1]; omega
theorem iblk3_apply (c : Dev nD) (t : Fin cfg0.N) (f : Fin 256) :
    (iblk m c 3 t : Vec Ideal S1x256 .f32) (ix2 (0 : Fin 1) f) = (V m c main_v30 : S1x256.Idx → EReal) (ix2 (0 : Fin 1) f) := by
  obtain ⟨e0, e1⟩ := (idx_rows t).3
  unfold iblk
  rw [View.read_apply]
  show V m c main_v30 _ = V m c main_v30 _
  congr 1
  funext a
  apply Fin.ext
  match a with
  | ⟨0, _⟩ => show win0_3.index t (0 : Fin 2) * 1 + 1 * 0 = 0; rw [e0]
  | ⟨1, _⟩ => show win0_3.index t (1 : Fin 2) * 256 + 1 * f.val = f.val; rw [e1]; omega
theorem iblk4_apply (c : Dev nD) (t : Fin cfg0.N) (f : Fin 256) :
    (iblk m c 4 t : Vec Ideal S1x256 .f32) (ix2 (0 : Fin 1) f) = (V m c main_v37 : S1x256.Idx → EReal) (ix2 (0 : Fin 1) f) := by
  obtain ⟨e0, e1⟩ := (idx_rows t).4
  unfold iblk
  rw [View.read_apply]
  show V m c main_v37 _ = V m c main_v37 _
  congr 1
  funext a
  apply Fin.ext
  match a with
  | ⟨0, _⟩ => show win0_4.index t (0 : Fin 2) * 1 + 1 * 0 = 0; rw [e0]
  | ⟨1, _⟩ => show win0_4.index t (1 : Fin 2) * 256 + 1 * f.val = f.val; rw [e1]; omega
theorem iblk5_apply (c : Dev nD) (t : Fin cfg0.N) (f : Fin 256) :
    (iblk m c 5 t : Vec Ideal S1x256 .f32) (ix2 (0 : Fin 1) f) = (V m c main_v44 : S1x256.Idx → EReal) (ix2 (0 : Fin 1) f) := by
  obtain ⟨e0, e1⟩ := (idx_rows t).5
  unfold iblk
  rw [View.read_apply]
  show V m c main_v44 _ = V m c main_v44 _
  congr 1
  funext a
  apply Fin.ext
  match a with
  | ⟨0, _⟩ => show win0_5.index t (0 : Fin 2) * 1 + 1 * 0 = 0; rw [e0]
  | ⟨1, _⟩ => show win0_5.index t (1 : Fin 2) * 256 + 1 * f.val = f.val; rw [e1]; omega
theorem iblk6_apply (c : Dev nD) (t : Fin cfg0.N) (f : Fin 256) :
    (iblk m c 6 t : Vec Ideal S1x256 .f32) (ix2 (0 : Fin 1) f) = (V m c main_v51 : S1x256.Idx → EReal) (ix2 (0 : Fin 1) f) := by
  obtain ⟨e0, e1⟩ := (idx_rows t).6
  unfold iblk
  rw [View.read_apply]
  show V m c main_v51 _ = V m c main_v51 _
  congr 1
  funext a
  apply Fin.ext
  match a with
  | ⟨0, _⟩ => show win0_6.index t (0 : Fin 2) * 1 + 1 * 0 = 0; rw [e0]
  | ⟨1, _⟩ => show win0_6.index t (1 : Fin 2) * 256 + 1 * f.val = f.val; rw [e1]; omega

/-! ## What point `t` writes back, the cover, the final array -/

/-- The output array the kernel computes: its arrangement of the argument arrays. -/
abbrev result (c : Dev nD) : S32x4096x256.Idx → EReal :=
  kernelArr (m ((c : Thread nD τ).loc main_arg0)) (m ((c : Thread nD τ).loc main_arg1)) (m ((c : Thread nD τ).loc main_arg2)) (sw m c)

/-- What point `t` writes back is block `t` of that array. -/
theorem flushed_eq (c : Dev nD) (t : Fin cfg0.N) :
    (dats m 0 c).flushed 7 t = ((cfg0.win 7).blk t).view.read (Elt Ideal) (result m c) := by
  obtain ⟨-, ⟨e0, e1, e2⟩, eg⟩ := idx_facts t
  have ht : t.val < 32 := by have h := t.isLt; have hN : cfg0.N = 32 := N_0; omega
  show (cfg0.win 7).cut (grid0.coords t) ((dats m 0 c).after 7 t) = _
  rw [after0_7]
  unfold out0_7
  rw [View.canon_unit_zero hz3]
  simp only [View.ld_unit_zero (S := S32x128x256) hz3, View.ld_unit_zero (S := S1x256) hz2]
  funext y
  obtain ⟨b, r, f, rfl⟩ : ∃ (b : Fin 32) (r : Fin 128) (f : Fin 256), y = ix3 b r f := ⟨y 0, y 1, y 2, eq_ix3 y⟩
  have hr := r.isLt
  have hemb : ((cfg0.win 7).blk t).view.emb (ix3 b r f) = (ix3 b (⟨t.val * 128 + r.val, by omega⟩ : Fin 4096) f : S32x4096x256.Idx) := by
    funext a
    apply Fin.ext
    match a with
    | ⟨0, _⟩ => show win0_7.index t (0 : Fin 3) * 32 + 1 * b.val = b.val; rw [e0]; omega
    | ⟨1, _⟩ => show win0_7.index t (1 : Fin 3) * 128 + 1 * r.val = t.val * 128 + r.val; rw [e1]; omega
    | ⟨2, _⟩ => show win0_7.index t (2 : Fin 3) * 256 + 1 * f.val = f.val; rw [e2]; omega
  rw [View.read_apply, hemb]
  show k0_pay6 (F := Ideal) (k0_pay1 (iblk m c 0 t)) (k0_pay2 (grid0.coords t)) (k0_pay4 (grid0.coords t) (iblk m c 1 t))
      (k0_pay5 (grid0.coords t) (iblk m c 4 t)) (iblk m c 2 t) (iblk m c 5 t) (iblk m c 3 t) (iblk m c 6 t) (ix3 b r f)
    = kernelOut (m ((c : Thread nD τ).loc main_arg0)) (m ((c : Thread nD τ).loc main_arg1)) (m ((c : Thread nD τ).loc main_arg2)) (sw m c)
        b (⟨t.val * 128 + r.val, by omega⟩ : Fin 4096) f
  refine point_eq (grid0.coords t) t.val eg (iblk m c 0 t) (iblk m c 1 t) (iblk m c 2 t) (iblk m c 3 t) (iblk m c 4 t)
    (iblk m c 5 t) (iblk m c 6 t) (m ((c : Thread nD τ).loc main_arg0)) (m ((c : Thread nD τ).loc main_arg1))
    (m ((c : Thread nD τ).loc main_arg2)) (sw m c) b r f ⟨t.val * 128 + r.val, by omega⟩ rfl
    (fun f' => iblk0_apply m c t b r f' ⟨t.val * 128 + r.val, by omega⟩ rfl) ?_ ?_ ?_ ?_ ?_ ?_
  · rw [iblk1_apply, V_v16]; exact coefRow_apply 0 _ _ _ _ _ _ rfl rfl rfl f
  · rw [iblk2_apply, V_v23]; exact coefRow_apply 1 _ _ _ _ _ _ rfl rfl rfl f
  · rw [iblk3_apply, V_v30]; exact coefRow_apply 2 _ _ _ _ _ _ rfl rfl rfl f
  · rw [iblk4_apply, V_v37]; exact coefRow_apply 0 _ _ _ _ _ _ rfl rfl rfl f
  · rw [iblk5_apply, V_v44]; exact coefRow_apply 1 _ _ _ _ _ _ rfl rfl rfl f
  · rw [iblk6_apply, V_v51]; exact coefRow_apply 2 _ _ _ _ _ _ rfl rfl rfl f

/-- Every entry (b, s, f) of the output lies in the block of point `s / 128`. -/
theorem cover (i : S32x4096x256.Idx) :
    ∃ t : Fin cfg0.N, (cfg0.win 7).flush t = true ∧ i ∈ ((cfg0.win 7).blk t).view.set := by
  have h0 : (i 0).val < 32 := (i 0).isLt
  have h1 : (i 1).val < 4096 := (i 1).isLt
  have h2 : (i 2).val < 256 := (i 2).isLt
  have hN : cfg0.N = 32 := N_0
  have hlt : (i 1).val / 128 < cfg0.N := by rw [hN]; omega
  obtain ⟨-, ⟨e0, e1, e2⟩, -⟩ := idx_facts ⟨(i 1).val / 128, hlt⟩
  refine ⟨⟨(i 1).val / 128, hlt⟩, flush0_7 _, ?_⟩
  show i ∈ ((View.whole main_v52).slice (win0_7.rect ⟨(i 1).val / 128, hlt⟩)).set
  rw [View.set_slice_whole, Rect.mem_set_unit]
  intro a
  match a with
  | ⟨0, _⟩ =>
    show win0_7.index ⟨(i 1).val / 128, hlt⟩ (0 : Fin 3) * 32 ≤ (i 0).val
      ∧ (i 0).val < win0_7.index ⟨(i 1).val / 128, hlt⟩ (0 : Fin 3) * 32 + 32
    rw [e0]; omega
  | ⟨1, _⟩ =>
    show win0_7.index ⟨(i 1).val / 128, hlt⟩ (1 : Fin 3) * 128 ≤ (i 1).val
      ∧ (i 1).val < win0_7.index ⟨(i 1).val / 128, hlt⟩ (1 : Fin 3) * 128 + 128
    rw [e1]; show (i 1).val / 128 * 128 ≤ (i 1).val ∧ (i 1).val < (i 1).val / 128 * 128 + 128; omega
  | ⟨2, _⟩ =>
    show win0_7.index ⟨(i 1).val / 128, hlt⟩ (2 : Fin 3) * 256 ≤ (i 2).val
      ∧ (i 2).val < win0_7.index ⟨(i 1).val / 128, hlt⟩ (2 : Fin 3) * 256 + 256
    rw [e2]; omega

/-- So the output array ends holding the kernel's arrangement of the arguments. -/
theorem final (c : Dev nD) : (dats m 0 c).arrAt 7 cfg0.N = result m c :=
  (dats m 0 c).arrAt_eq_of_cover 7 (result m c) (fun t _ => flushed_eq m c t) (cover)

/-! ## The run, read -/

/-- Every execution of the idealized kernel ends with the output array at the kernel's arrangement of the argument
    arrays, and the argument arrays unchanged. -/
theorem run : θ_run defs (onTc (τ := τ) (main (F := Ideal))) ⟨m, fun _ => 0, ρ⟩ fun r => ∀ c : Dev nD,
      r.2.mem ((c : Thread nD τ).loc main_v52) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Hand

end
-- ==== Proof.RefRunOps.lean ====
/-
  The reference program's @main as a list of its host operations, in four consecutive stretches: the seven operations
  before the call of the variance function, the twenty-three operations of that function and of the select function it
  calls (each over the buffers of its call record), the fifty-two operations after the call up to the end of @main's
  first window, and the fifty operations of @main's second window.  @main is the straight line of the four stretches in
  order (a call executes the callee's body on the operands, so unfolding the two functions at their calls and
  re-associating the sequencing leaves one chain of operations), every operation touches TensorCore buffers only, and
  the signature scopes no buffer and no semaphore.
-/
import proofs.«140669_j52630529245619_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of @main before the call of the variance function: the row sums and the mean. -/
abbrev opsA : List (HloOp τ sig (Elt F)) :=
  [ StableHlo.nullary main_cst (constant S_ .f32 0x00000000#32),
    StableHlo.binary main_arg0 main_cst main_v0 ((fun x v => Host.reduceAdd x v reducesTo_S32x4096x256_S32x4096_d2 h_S_) : (⟨S32x4096x256, .f32⟩ : BufTy).Contents (Elt F) → (⟨S_, .f32⟩ : BufTy).Contents (Elt F) → (⟨S32x4096, .f32⟩ : BufTy).Contents (Elt F)),
    StableHlo.unary main_v0 main_v1 (broadcastInDim S32x4096x1 ![0, 1] bcast_S32x4096_S32x4096x1_0_1 : (⟨S32x4096, .f32⟩ : BufTy).Contents (Elt F) → (⟨S32x4096x1, .f32⟩ : BufTy).Contents (Elt F)),
    StableHlo.nullary main_cst_0 (constant S_ .f32 0x43800000#32),
    StableHlo.unary main_cst_0 main_v2 (broadcastInDim S32x4096x1 ![] bcast_S_S32x4096x1 : (⟨S_, .f32⟩ : BufTy).Contents (Elt F) → (⟨S32x4096x1, .f32⟩ : BufTy).Contents (Elt F)),
    StableHlo.binary main_v1 main_v2 main_v3 (Host.divf : (⟨S32x4096x1, .f32⟩ : BufTy).Contents (Elt F) → (⟨S32x4096x1, .f32⟩ : BufTy).Contents (Elt F) → (⟨S32x4096x1, .f32⟩ : BufTy).Contents (Elt F)),
    StableHlo.nullary main_c (constantI S_ 32 0#32) ]

/-- The variance function's operations over its call record (the mean again, the squared deviations, their row sums,
    the divisor 256 - 0 and the test that it is positive), then the select function's three over its own record. -/
abbrev opsV : List (HloOp τ sig (Elt F)) :=
  [ StableHlo.TRef.nullary main_call0.cst (constant S_ .f32 0x00000000#32),
    StableHlo.TRef.binary (.of main_arg0) main_call0.cst main_call0.v0 (fun x v => Host.reduceAdd x v reducesTo_S32x4096x256_S32x4096_d2 h_S_),
    StableHlo.TRef.unary main_call0.v0 main_call0.v1 (broadcastInDim S32x4096x1 ![0, 1] bcast_S32x4096_S32x4096x1_0_1),
    StableHlo.TRef.nullary main_call0.cst_0 (constant S_ .f32 0x43800000#32),
    StableHlo.TRef.unary main_call0.cst_0 main_call0.v2 (broadcastInDim S32x4096x1 ![] bcast_S_S32x4096x1),
    StableHlo.TRef.binary main_call0.v1 main_call0.v2 main_call0.v3 Host.divf,
    StableHlo.TRef.unary main_call0.v3 main_call0.v4 (broadcastInDim S32x4096x256 ![0, 1, 2] bcast_S32x4096x1_S32x4096x256_0_1_2),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x43800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32x4096x256_S32x4096_d2 h_S_),
    StableHlo.TRef.unary main_call0.v9 main_call0.v10 (broadcastInDim S32x4096x1 ![0, 1] bcast_S32x4096_S32x4096x1_0_1),
    StableHlo.TRef.unary main_call0.v8 main_call0.v11 (broadcastInDim S32x4096x1 ![] bcast_S_S32x4096x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32x4096x1 ![] bcast_S_S32x4096x1),
    StableHlo.TRef.ternary main_call0.v13 main_call0.v12 main_call0.call0.v1 main_call0.call0.v2 (fun p a b => select (broadcastInDim S32x4096x1 ![] bcast_S_S32x4096x1 p) a b) ]

/-- From the call's return to the end of @main's first window: the normalized rows, the softmax of the three logits,
    the first window's mask and term, the second window's lower bound. -/
abbrev opsB : List (HloOp τ sig (Elt F)) :=
  [ StableHlo.unary main_v3 main_v5 (broadcastInDim S32x4096x256 ![0, 1, 2] bcast_S32x4096x1_S32x4096x256_0_1_2 : (⟨S32x4096x1, .f32⟩ : BufTy).Contents (Elt F) → (⟨S32x4096x256, .f32⟩ : BufTy).Contents (Elt F)),
    StableHlo.binary main_arg0 main_v5 main_v6 (subf : (⟨S32x4096x256, .f32⟩ : BufTy).Contents (Elt F) → (⟨S32x4096x256, .f32⟩ : BufTy).Contents (Elt F) → (⟨S32x4096x256, .f32⟩ : BufTy).Contents (Elt F)),
    StableHlo.nullary main_cst_1 (constant S_ .f32 0x3727C5AC#32),
    StableHlo.unary main_cst_1 main_v7 (broadcastInDim S32x4096x1 ![] bcast_S_S32x4096x1 : (⟨S_, .f32⟩ : BufTy).Contents (Elt F) → (⟨S32x4096x1, .f32⟩ : BufTy).Contents (Elt F)),
    StableHlo.binary main_v4 main_v7 main_v8 (addf : (⟨S32x4096x1, .f32⟩ : BufTy).Contents (Elt F) → (⟨S32x4096x1, .f32⟩ : BufTy).Contents (Elt F) → (⟨S32x4096x1, .f32⟩ : BufTy).Contents (Elt F)),
    StableHlo.unary main_v8 main_v9 (Host.rsqrt : (⟨S32x4096x1, .f32⟩ : BufTy).Contents (Elt F) → (⟨S32x4096x1, .f32⟩ : BufTy).Contents (Elt F)),
    StableHlo.unary main_v9 main_v10 (broadcastInDim S32x4096x256 ![0, 1, 2] bcast_S32x4096x1_S32x4096x256_0_1_2 : (⟨S32x4096x1, .f32⟩ : BufTy).Contents (Elt F) → (⟨S32x4096x256, .f32⟩ : BufTy).Contents (Elt F)),
    StableHlo.binary main_v6 main_v10 main_v11 (mulf : (⟨S32x4096x256, .f32⟩ : BufTy).Contents (Elt F) → (⟨S32x4096x256, .f32⟩ : BufTy).Contents (Elt F) → (⟨S32x4096x256, .f32⟩ : BufTy).Contents (Elt F)),
    StableHlo.nullary main_cst_2 (constant S_ .f32 0xFF800000#32),
    StableHlo.binary main_arg3 main_cst_2 main_v12 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_3 (constant S_ .f32 0xFF800000#32),
    StableHlo.binary main_cst_3 main_v12 main_v13 (maximumf : (⟨S_, .f32⟩ : BufTy).Contents (Elt F) → (⟨S_, .f32⟩ : BufTy).Contents (Elt F) → (⟨S_, .f32⟩ : BufTy).Contents (Elt F)),
    StableHlo.unary main_v13 main_v14 (broadcastInDim S1 ![] bcast_S_S1 : (⟨S_, .f32⟩ : BufTy).Contents (Elt F) → (⟨S1, .f32⟩ : BufTy).Contents (Elt F)),
    StableHlo.unary main_v14 main_v15 (broadcastInDim S3 ![0] bcast_S1_S3_0 : (⟨S1, .f32⟩ : BufTy).Contents (Elt F) → (⟨S3, .f32⟩ : BufTy).Contents (Elt F)),
    StableHlo.binary main_arg3 main_v15 main_v16 (subf : (⟨S3, .f32⟩ : BufTy).Contents (Elt F) → (⟨S3, .f32⟩ : BufTy).Contents (Elt F) → (⟨S3, .f32⟩ : BufTy).Contents (Elt F)),
    StableHlo.unary main_v16 main_v17 (Host.exp : (⟨S3, .f32⟩ : BufTy).Contents (Elt F) → (⟨S3, .f32⟩ : BufTy).Contents (Elt F)),
    StableHlo.nullary main_cst_4 (constant S_ .f32 0x00000000#32),
    StableHlo.binary main_v17 main_cst_4 main_v18 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v18 main_v19 (broadcastInDim S1 ![] bcast_S_S1 : (⟨S_, .f32⟩ : BufTy).Contents (Elt F) → (⟨S1, .f32⟩ : BufTy).Contents (Elt F)),
    StableHlo.unary main_v19 main_v20 (broadcastInDim S3 ![0] bcast_S1_S3_0 : (⟨S1, .f32⟩ : BufTy).Contents (Elt F) → (⟨S3, .f32⟩ : BufTy).Contents (Elt F)),
    StableHlo.binary main_v17 main_v20 main_v21 (Host.divf : (⟨S3, .f32⟩ : BufTy).Contents (Elt F) → (⟨S3, .f32⟩ : BufTy).Contents (Elt F) → (⟨S3, .f32⟩ : BufTy).Contents (Elt F)),
    StableHlo.nullary main_v22 (iotaInDim S4096 32 0),
    StableHlo.nullary main_cst_5 (constant S_ .f32 0x00000000#32),
    StableHlo.unary main_cst_5 main_v23 (broadcastInDim S32x4096x256 ![] bcast_S_S32x4096x256 : (⟨S_, .f32⟩ : BufTy).Contents (Elt F) → (⟨S32x4096x256, .f32⟩ : BufTy).Contents (Elt F)),
    StableHlo.nullary main_c_6 (constantI S_ 32 2#32),
    StableHlo.unary main_c_6 main_v24 (broadcastInDim S4096 ![] bcast_S_S4096 : (⟨S_, .i32⟩ : BufTy).Contents (Elt F) → (⟨S4096, .i32⟩ : BufTy).Contents (Elt F)),
    StableHlo.binary main_v22 main_v24 main_v25 (cmpi .sge : (⟨S4096, .i32⟩ : BufTy).Contents (Elt F) → (⟨S4096, .i32⟩ : BufTy).Contents (Elt F) → (⟨S4096, .i1⟩ : BufTy).Contents (Elt F)),
    StableHlo.nullary main_c_7 (constantI S_ 32 4094#32),
    StableHlo.unary main_c_7 main_v26 (broadcastInDim S4096 ![] bcast_S_S4096 : (⟨S_, .i32⟩ : BufTy).Contents (Elt F) → (⟨S4096, .i32⟩ : BufTy).Contents (Elt F)),
    StableHlo.binary main_v22 main_v26 main_v27 (cmpi .slt : (⟨S4096, .i32⟩ : BufTy).Contents (Elt F) → (⟨S4096, .i32⟩ : BufTy).Contents (Elt F) → (⟨S4096, .i1⟩ : BufTy).Contents (Elt F)),
    StableHlo.binary main_v25 main_v27 main_v28 (andi : (⟨S4096, .i1⟩ : BufTy).Contents (Elt F) → (⟨S4096, .i1⟩ : BufTy).Contents (Elt F) → (⟨S4096, .i1⟩ : BufTy).Contents (Elt F)),
    StableHlo.unary main_v28 main_v29 (uitofp .f32 : (⟨S4096, .i1⟩ : BufTy).Contents (Elt F) → (⟨S4096, .f32⟩ : BufTy).Contents (Elt F)),
    StableHlo.unary main_v29 main_v30 (broadcastInDim S1x4096x1 ![1] bcast_S4096_S1x4096x1_1 : (⟨S4096, .f32⟩ : BufTy).Contents (Elt F) → (⟨S1x4096x1, .f32⟩ : BufTy).Contents (Elt F)),
    StableHlo.unary main_arg1 main_v31 ((extractStridedSlice S1x256 ![0, 0] · slices_S3x256_S1x256_0_0) : (⟨S3x256, .f32⟩ : BufTy).Contents (Elt F) → (⟨S1x256, .f32⟩ : BufTy).Contents (Elt F)),
    StableHlo.reshape main_v31 main_v32 rfl shapeCasts_S1x256_S256,
    StableHlo.unary main_v32 main_v33 (broadcastInDim S1x1x256 ![2] bcast_S256_S1x1x256_2 : (⟨S256, .f32⟩ : BufTy).Contents (Elt F) → (⟨S1x1x256, .f32⟩ : BufTy).Contents (Elt F)),
    StableHlo.unary main_v33 main_v34 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v11 main_v34 main_v35 (mulf : (⟨S32x4096x256, .f32⟩ : BufTy).Contents (Elt F) → (⟨S32x4096x256, .f32⟩ : BufTy).Contents (Elt F) → (⟨S32x4096x256, .f32⟩ : BufTy).Contents (Elt F)),
    StableHlo.unary main_arg2 main_v36 ((extractStridedSlice S1x256 ![0, 0] · slices_S3x256_S1x256_0_0) : (⟨S3x256, .f32⟩ : BufTy).Contents (Elt F) → (⟨S1x256, .f32⟩ : BufTy).Contents (Elt F)),
    StableHlo.reshape main_v36 main_v37 rfl shapeCasts_S1x256_S256,
    StableHlo.unary main_v37 main_v38 (broadcastInDim S1x1x256 ![2] bcast_S256_S1x1x256_2 : (⟨S256, .f32⟩ : BufTy).Contents (Elt F) → (⟨S1x1x256, .f32⟩ : BufTy).Contents (Elt F)),
    StableHlo.unary main_v38 main_v39 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v35 main_v39 main_v40 (addf : (⟨S32x4096x256, .f32⟩ : BufTy).Contents (Elt F) → (⟨S32x4096x256, .f32⟩ : BufTy).Contents (Elt F) → (⟨S32x4096x256, .f32⟩ : BufTy).Contents (Elt F)),
    StableHlo.unary main_v30 main_v41 (broadcastInDim S32x4096x256 ![0, 1, 2] bcast_S1x4096x1_S32x4096x256_0_1_2 : (⟨S1x4096x1, .f32⟩ : BufTy).Contents (Elt F) → (⟨S32x4096x256, .f32⟩ : BufTy).Contents (Elt F)),
    StableHlo.binary main_v40 main_v41 main_v42 (mulf : (⟨S32x4096x256, .f32⟩ : BufTy).Contents (Elt F) → (⟨S32x4096x256, .f32⟩ : BufTy).Contents (Elt F) → (⟨S32x4096x256, .f32⟩ : BufTy).Contents (Elt F)),
    StableHlo.unary main_v21 main_v43 ((extractStridedSlice S1 ![0] · slices_S3_S1_0) : (⟨S3, .f32⟩ : BufTy).Contents (Elt F) → (⟨S1, .f32⟩ : BufTy).Contents (Elt F)),
    StableHlo.reshape main_v43 main_v44 rfl shapeCasts_S1_S_,
    StableHlo.unary main_v44 main_v45 (broadcastInDim S32x4096x256 ![] bcast_S_S32x4096x256 : (⟨S_, .f32⟩ : BufTy).Contents (Elt F) → (⟨S32x4096x256, .f32⟩ : BufTy).Contents (Elt F)),
    StableHlo.binary main_v45 main_v42 main_v46 (mulf : (⟨S32x4096x256, .f32⟩ : BufTy).Contents (Elt F) → (⟨S32x4096x256, .f32⟩ : BufTy).Contents (Elt F) → (⟨S32x4096x256, .f32⟩ : BufTy).Contents (Elt F)),
    StableHlo.binary main_v23 main_v46 main_v47 (addf : (⟨S32x4096x256, .f32⟩ : BufTy).Contents (Elt F) → (⟨S32x4096x256, .f32⟩ : BufTy).Contents (Elt F) → (⟨S32x4096x256, .f32⟩ : BufTy).Contents (Elt F)),
    StableHlo.nullary main_c_8 (constantI S_ 32 5#32),
    StableHlo.unary main_c_8 main_v48 (broadcastInDim S4096 ![] bcast_S_S4096 : (⟨S_, .i32⟩ : BufTy).Contents (Elt F) → (⟨S4096, .i32⟩ : BufTy).Contents (Elt F)) ]

/-- @main's second window: the second and third windows' masks and terms, and the sum. -/
abbrev opsC : List (HloOp τ sig (Elt F)) :=
  [ StableHlo.binary main_v22 main_v48 main_v49 (cmpi .sge : (⟨S4096, .i32⟩ : BufTy).Contents (Elt F) → (⟨S4096, .i32⟩ : BufTy).Contents (Elt F) → (⟨S4096, .i1⟩ : BufTy).Contents (Elt F)),
    StableHlo.nullary main_c_9 (constantI S_ 32 4092#32),
    StableHlo.unary main_c_9 main_v50 (broadcastInDim S4096 ![] bcast_S_S4096 : (⟨S_, .i32⟩ : BufTy).Contents (Elt F) → (⟨S4096, .i32⟩ : BufTy).Contents (Elt F)),
    StableHlo.binary main_v22 main_v50 main_v51 (cmpi .slt : (⟨S4096, .i32⟩ : BufTy).Contents (Elt F) → (⟨S4096, .i32⟩ : BufTy).Contents (Elt F) → (⟨S4096, .i1⟩ : BufTy).Contents (Elt F)),
    StableHlo.binary main_v49 main_v51 main_v52 (andi : (⟨S4096, .i1⟩ : BufTy).Contents (Elt F) → (⟨S4096, .i1⟩ : BufTy).Contents (Elt F) → (⟨S4096, .i1⟩ : BufTy).Contents (Elt F)),
    StableHlo.unary main_v52 main_v53 (uitofp .f32 : (⟨S4096, .i1⟩ : BufTy).Contents (Elt F) → (⟨S4096, .f32⟩ : BufTy).Contents (Elt F)),
    StableHlo.unary main_v53 main_v54 (broadcastInDim S1x4096x1 ![1] bcast_S4096_S1x4096x1_1 : (⟨S4096, .f32⟩ : BufTy).Contents (Elt F) → (⟨S1x4096x1, .f32⟩ : BufTy).Contents (Elt F)),
    StableHlo.unary main_arg1 main_v55 ((extractStridedSlice S1x256 ![1, 0] · slices_S3x256_S1x256_1_0) : (⟨S3x256, .f32⟩ : BufTy).Contents (Elt F) → (⟨S1x256, .f32⟩ : BufTy).Contents (Elt F)),
    StableHlo.reshape main_v55 main_v56 rfl shapeCasts_S1x256_S256,
    StableHlo.unary main_v56 main_v57 (broadcastInDim S1x1x256 ![2] bcast_S256_S1x1x256_2 : (⟨S256, .f32⟩ : BufTy).Contents (Elt F) → (⟨S1x1x256, .f32⟩ : BufTy).Contents (Elt F)),
    StableHlo.unary main_v57 main_v58 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v11 main_v58 main_v59 (mulf : (⟨S32x4096x256, .f32⟩ : BufTy).Contents (Elt F) → (⟨S32x4096x256, .f32⟩ : BufTy).Contents (Elt F) → (⟨S32x4096x256, .f32⟩ : BufTy).Contents (Elt F)),
    StableHlo.unary main_arg2 main_v60 ((extractStridedSlice S1x256 ![1, 0] · slices_S3x256_S1x256_1_0) : (⟨S3x256, .f32⟩ : BufTy).Contents (Elt F) → (⟨S1x256, .f32⟩ : BufTy).Contents (Elt F)),
    StableHlo.reshape main_v60 main_v61 rfl shapeCasts_S1x256_S256,
    StableHlo.unary main_v61 main_v62 (broadcastInDim S1x1x256 ![2] bcast_S256_S1x1x256_2 : (⟨S256, .f32⟩ : BufTy).Contents (Elt F) → (⟨S1x1x256, .f32⟩ : BufTy).Contents (Elt F)),
    StableHlo.unary main_v62 main_v63 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v59 main_v63 main_v64 (addf : (⟨S32x4096x256, .f32⟩ : BufTy).Contents (Elt F) → (⟨S32x4096x256, .f32⟩ : BufTy).Contents (Elt F) → (⟨S32x4096x256, .f32⟩ : BufTy).Contents (Elt F)),
    StableHlo.unary main_v54 main_v65 (broadcastInDim S32x4096x256 ![0, 1, 2] bcast_S1x4096x1_S32x4096x256_0_1_2 : (⟨S1x4096x1, .f32⟩ : BufTy).Contents (Elt F) → (⟨S32x4096x256, .f32⟩ : BufTy).Contents (Elt F)),
    StableHlo.binary main_v64 main_v65 main_v66 (mulf : (⟨S32x4096x256, .f32⟩ : BufTy).Contents (Elt F) → (⟨S32x4096x256, .f32⟩ : BufTy).Contents (Elt F) → (⟨S32x4096x256, .f32⟩ : BufTy).Contents (Elt F)),
    StableHlo.unary main_v21 main_v67 ((extractStridedSlice S1 ![1] · slices_S3_S1_1) : (⟨S3, .f32⟩ : BufTy).Contents (Elt F) → (⟨S1, .f32⟩ : BufTy).Contents (Elt F)),
    StableHlo.reshape main_v67 main_v68 rfl shapeCasts_S1_S_,
    StableHlo.unary main_v68 main_v69 (broadcastInDim S32x4096x256 ![] bcast_S_S32x4096x256 : (⟨S_, .f32⟩ : BufTy).Contents (Elt F) → (⟨S32x4096x256, .f32⟩ : BufTy).Contents (Elt F)),
    StableHlo.binary main_v69 main_v66 main_v70 (mulf : (⟨S32x4096x256, .f32⟩ : BufTy).Contents (Elt F) → (⟨S32x4096x256, .f32⟩ : BufTy).Contents (Elt F) → (⟨S32x4096x256, .f32⟩ : BufTy).Contents (Elt F)),
    StableHlo.binary main_v47 main_v70 main_v71 (addf : (⟨S32x4096x256, .f32⟩ : BufTy).Contents (Elt F) → (⟨S32x4096x256, .f32⟩ : BufTy).Contents (Elt F) → (⟨S32x4096x256, .f32⟩ : BufTy).Contents (Elt F)),
    StableHlo.nullary main_c_10 (constantI S_ 32 10#32),
    StableHlo.unary main_c_10 main_v72 (broadcastInDim S4096 ![] bcast_S_S4096 : (⟨S_, .i32⟩ : BufTy).Contents (Elt F) → (⟨S4096, .i32⟩ : BufTy).Contents (Elt F)),
    StableHlo.binary main_v22 main_v72 main_v73 (cmpi .sge : (⟨S4096, .i32⟩ : BufTy).Contents (Elt F) → (⟨S4096, .i32⟩ : BufTy).Contents (Elt F) → (⟨S4096, .i1⟩ : BufTy).Contents (Elt F)),
    StableHlo.nullary main_c_11 (constantI S_ 32 4087#32),
    StableHlo.unary main_c_11 main_v74 (broadcastInDim S4096 ![] bcast_S_S4096 : (⟨S_, .i32⟩ : BufTy).Contents (Elt F) → (⟨S4096, .i32⟩ : BufTy).Contents (Elt F)),
    StableHlo.binary main_v22 main_v74 main_v75 (cmpi .slt : (⟨S4096, .i32⟩ : BufTy).Contents (Elt F) → (⟨S4096, .i32⟩ : BufTy).Contents (Elt F) → (⟨S4096, .i1⟩ : BufTy).Contents (Elt F)),
    StableHlo.binary main_v73 main_v75 main_v76 (andi : (⟨S4096, .i1⟩ : BufTy).Contents (Elt F) → (⟨S4096, .i1⟩ : BufTy).Contents (Elt F) → (⟨S4096, .i1⟩ : BufTy).Contents (Elt F)),
    StableHlo.unary main_v76 main_v77 (uitofp .f32 : (⟨S4096, .i1⟩ : BufTy).Contents (Elt F) → (⟨S4096, .f32⟩ : BufTy).Contents (Elt F)),
    StableHlo.unary main_v77 main_v78 (broadcastInDim S1x4096x1 ![1] bcast_S4096_S1x4096x1_1 : (⟨S4096, .f32⟩ : BufTy).Contents (Elt F) → (⟨S1x4096x1, .f32⟩ : BufTy).Contents (Elt F)),
    StableHlo.unary main_arg1 main_v79 ((extractStridedSlice S1x256 ![2, 0] · slices_S3x256_S1x256_2_0) : (⟨S3x256, .f32⟩ : BufTy).Contents (Elt F) → (⟨S1x256, .f32⟩ : BufTy).Contents (Elt F)),
    StableHlo.reshape main_v79 main_v80 rfl shapeCasts_S1x256_S256,
    StableHlo.unary main_v80 main_v81 (broadcastInDim S1x1x256 ![2] bcast_S256_S1x1x256_2 : (⟨S256, .f32⟩ : BufTy).Contents (Elt F) → (⟨S1x1x256, .f32⟩ : BufTy).Contents (Elt F)),
    StableHlo.unary main_v81 main_v82 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v11 main_v82 main_v83 (mulf : (⟨S32x4096x256, .f32⟩ : BufTy).Contents (Elt F) → (⟨S32x4096x256, .f32⟩ : BufTy).Contents (Elt F) → (⟨S32x4096x256, .f32⟩ : BufTy).Contents (Elt F)),
    StableHlo.unary main_arg2 main_v84 ((extractStridedSlice S1x256 ![2, 0] · slices_S3x256_S1x256_2_0) : (⟨S3x256, .f32⟩ : BufTy).Contents (Elt F) → (⟨S1x256, .f32⟩ : BufTy).Contents (Elt F)),
    StableHlo.reshape main_v84 main_v85 rfl shapeCasts_S1x256_S256,
    StableHlo.unary main_v85 main_v86 (broadcastInDim S1x1x256 ![2] bcast_S256_S1x1x256_2 : (⟨S256, .f32⟩ : BufTy).Contents (Elt F) → (⟨S1x1x256, .f32⟩ : BufTy).Contents (Elt F)),
    StableHlo.unary main_v86 main_v87 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v83 main_v87 main_v88 (addf : (⟨S32x4096x256, .f32⟩ : BufTy).Contents (Elt F) → (⟨S32x4096x256, .f32⟩ : BufTy).Contents (Elt F) → (⟨S32x4096x256, .f32⟩ : BufTy).Contents (Elt F)),
    StableHlo.unary main_v78 main_v89 (broadcastInDim S32x4096x256 ![0, 1, 2] bcast_S1x4096x1_S32x4096x256_0_1_2 : (⟨S1x4096x1, .f32⟩ : BufTy).Contents (Elt F) → (⟨S32x4096x256, .f32⟩ : BufTy).Contents (Elt F)),
    StableHlo.binary main_v88 main_v89 main_v90 (mulf : (⟨S32x4096x256, .f32⟩ : BufTy).Contents (Elt F) → (⟨S32x4096x256, .f32⟩ : BufTy).Contents (Elt F) → (⟨S32x4096x256, .f32⟩ : BufTy).Contents (Elt F)),
    StableHlo.unary main_v21 main_v91 ((extractStridedSlice S1 ![2] · slices_S3_S1_2) : (⟨S3, .f32⟩ : BufTy).Contents (Elt F) → (⟨S1, .f32⟩ : BufTy).Contents (Elt F)),
    StableHlo.reshape main_v91 main_v92 rfl shapeCasts_S1_S_,
    StableHlo.unary main_v92 main_v93 (broadcastInDim S32x4096x256 ![] bcast_S_S32x4096x256 : (⟨S_, .f32⟩ : BufTy).Contents (Elt F) → (⟨S32x4096x256, .f32⟩ : BufTy).Contents (Elt F)),
    StableHlo.binary main_v93 main_v90 main_v94 (mulf : (⟨S32x4096x256, .f32⟩ : BufTy).Contents (Elt F) → (⟨S32x4096x256, .f32⟩ : BufTy).Contents (Elt F) → (⟨S32x4096x256, .f32⟩ : BufTy).Contents (Elt F)),
    StableHlo.binary main_v71 main_v94 main_v95 (addf : (⟨S32x4096x256, .f32⟩ : BufTy).Contents (Elt F) → (⟨S32x4096x256, .f32⟩ : BufTy).Contents (Elt F) → (⟨S32x4096x256, .f32⟩ : BufTy).Contents (Elt F)) ]

/-- @main's operations, in order. -/
abbrev ops : List (HloOp τ sig (Elt F)) := opsA ++ opsV ++ opsB ++ opsC

set_option maxRecDepth 8192 in
/-- @main's second window is the straight line of its operations. -/
theorem main_part1_eq (c : Dev nD) : main_part1 (F := F) c = seq opsC := rfl

set_option maxRecDepth 8192 in
/-- @main's first window is the straight line of its operations: the two functions' definitions unfolded at their calls
    and the records at their fields, both sides are one chain of operations once the sequencing is re-associated. -/
theorem main_part0_eq (c : Dev nD) : main_part0 (F := F) c = seq (opsA ++ opsV ++ opsB) := by
  simp only [main_part0, fn_var.body, fn_where.body, seq_append, seq, bind_assoc, pure_bind]
  rfl

/-- @main is the straight line of all its operations. -/
theorem main_eq (c : Dev nD) : main (F := F) c = seq ops := by
  have h : (ops : List (HloOp τ sig (Elt F))) = (opsA ++ opsV ++ opsB) ++ opsC := rfl
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem opsV_sub : (opsV : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem opsB_sub : (opsB : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., unary_bufs_sub .., nullary_bufs_sub .., unary_bufs_sub .., binary_bufs_sub .., nullary_bufs_sub .., unary_bufs_sub .., binary_bufs_sub .., binary_bufs_sub .., unary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., unary_bufs_sub .., reshape_bufs_sub .., unary_bufs_sub .., binary_bufs_sub .., binary_bufs_sub .., nullary_bufs_sub .., unary_bufs_sub ..⟩
theorem opsC_sub : (opsC : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., unary_bufs_sub .., reshape_bufs_sub .., unary_bufs_sub .., binary_bufs_sub .., binary_bufs_sub ..⟩
/-- Every operation of @main touches TensorCore buffers only. -/
theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp opsA_sub op h, List.forall_iff_forall_mem.mp opsV_sub op h,
      List.forall_iff_forall_mem.mp opsB_sub op h, List.forall_iff_forall_mem.mp opsC_sub op h]

end Cert.ReferenceIdeal.RefValue

end
-- ==== Proof.RefTerm.lean ====
/-
  The value the reference program leaves in its result, as ONE function of its four argument arrays, read on the
  extended reals: one small definition per value of the program that matters, each the printed operation applied to
  earlier definitions. The program normalizes every row of `x` over its 256 features (mean, centred row, variance,
  reciprocal square root), forms the softmax of the three aggregation logits, and adds, over three windows of time
  steps, the softmax weight times the masked affine map of the normalized row.
-/
import proofs.«140669_j52630529245619_2_alg».proof.Proof.Gen.ReferenceIdeal
import Idealize.ShloMosaic.PureOps.Ideal

noncomputable section

namespace Cert.ReferenceIdeal.RefValue

open Cert.ReferenceIdeal Cert.ReferenceIdeal.Facts₀ Idealize.ShloMosaic

/-! ## The mean of every row (@main's %0 … %3; the variance function computes the same four values again) -/

/-- %cst: the zero a sum starts from. -/
def zero0 : FVec Ideal S_ .f32 := constant (F := Ideal) S_ .f32 0x00000000#32
/-- %cst_0: the divisor 256.0. -/
def n0 : FVec Ideal S_ .f32 := constant (F := Ideal) S_ .f32 0x43800000#32

/-- %0: the sum of each row over its 256 features. -/
def rowSum (x : FVec Ideal S32x4096x256 .f32) : FVec Ideal S32x4096 .f32 :=
  Host.reduceAdd x zero0 reducesTo_S32x4096x256_S32x4096_d2 h_S_
/-- %1: the same, with a feature axis of extent one. -/
def rowSum1 (x : FVec Ideal S32x4096x256 .f32) : FVec Ideal S32x4096x1 .f32 :=
  broadcastInDim S32x4096x1 ![0, 1] bcast_S32x4096_S32x4096x1_0_1 (rowSum x)
/-- %2: 256.0 at every row. -/
def nRows : FVec Ideal S32x4096x1 .f32 := broadcastInDim S32x4096x1 ![] bcast_S_S32x4096x1 n0
/-- %3: the mean of each row. -/
def mean1 (x : FVec Ideal S32x4096x256 .f32) : FVec Ideal S32x4096x1 .f32 := Host.divf (rowSum1 x) nRows
/-- %5 (the variance function's %4): the mean at every feature of its row. -/
def meanB (x : FVec Ideal S32x4096x256 .f32) : FVec Ideal S32x4096x256 .f32 :=
  broadcastInDim S32x4096x256 ![0, 1, 2] bcast_S32x4096x1_S32x4096x256_0_1_2 (mean1 x)
/-- %6 (the variance function's %5): the centred rows. -/
def cen (x : FVec Ideal S32x4096x256 .f32) : FVec Ideal S32x4096x256 .f32 := subf x (meanB x)

/-! ## The variance of every row (the call %4 of the variance function, with zero degrees of freedom removed) -/

/-- The variance function's %6: the squared deviations. -/
def sq (x : FVec Ideal S32x4096x256 .f32) : FVec Ideal S32x4096x256 .f32 := mulf (cen x) (cen x)
/-- The variance function's %7: the integer argument 0 as a float. -/
def ddof : FVec Ideal S_ .f32 := sitofp .f32 (constantI S_ 32 0#32)
/-- The variance function's %8: 256.0 minus that. -/
def nEff : FVec Ideal S_ .f32 := subf n0 ddof
/-- The variance function's %9: the sum of the squared deviations of each row. -/
def sqSum (x : FVec Ideal S32x4096x256 .f32) : FVec Ideal S32x4096 .f32 :=
  Host.reduceAdd (sq x) zero0 reducesTo_S32x4096x256_S32x4096_d2 h_S_
/-- The variance function's %10. -/
def sqSum1 (x : FVec Ideal S32x4096x256 .f32) : FVec Ideal S32x4096x1 .f32 :=
  broadcastInDim S32x4096x1 ![0, 1] bcast_S32x4096_S32x4096x1_0_1 (sqSum x)
/-- The variance function's %11: the divisor at every row. -/
def nEffRows : FVec Ideal S32x4096x1 .f32 := broadcastInDim S32x4096x1 ![] bcast_S_S32x4096x1 nEff
/-- The variance function's %12: the quotient. -/
def varQ (x : FVec Ideal S32x4096x256 .f32) : FVec Ideal S32x4096x1 .f32 := Host.divf (sqSum1 x) nEffRows
/-- The variance function's %13: is the divisor positive. -/
def nPos : IVec S_ 1 := cmpf .ogt nEff zero0
/-- The variance function's %cst_4, and what its selection's function makes of it (%0, %1 there). -/
def nanRows : FVec Ideal S32x4096x1 .f32 :=
  broadcastInDim S32x4096x1 ![] bcast_S_S32x4096x1 (id (constant (F := Ideal) S_ .f32 0x7FC00000#32))
/-- %4: the variance of each row: the quotient where the divisor is positive. -/
def var1 (x : FVec Ideal S32x4096x256 .f32) : FVec Ideal S32x4096x1 .f32 :=
  select (broadcastInDim S32x4096x1 ![] bcast_S_S32x4096x1 nPos) (varQ x) nanRows

/-! ## The normalized rows (%7 … %11) -/

/-- %7: ε at every row. -/
def epsRows : FVec Ideal S32x4096x1 .f32 :=
  broadcastInDim S32x4096x1 ![] bcast_S_S32x4096x1 (constant (F := Ideal) S_ .f32 0x3727C5AC#32)
/-- %9: the reciprocal square root of the variance plus ε. -/
def rstd1 (x : FVec Ideal S32x4096x256 .f32) : FVec Ideal S32x4096x1 .f32 := Host.rsqrt (addf (var1 x) epsRows)
/-- %10: the same at every feature of its row. -/
def rstdB (x : FVec Ideal S32x4096x256 .f32) : FVec Ideal S32x4096x256 .f32 :=
  broadcastInDim S32x4096x256 ![0, 1, 2] bcast_S32x4096x1_S32x4096x256_0_1_2 (rstd1 x)
/-- %11: the normalized rows. -/
def xhat (x : FVec Ideal S32x4096x256 .f32) : FVec Ideal S32x4096x256 .f32 := mulf (cen x) (rstdB x)

/-! ## The softmax of the aggregation logits (%12 … %21) -/

/-- %cst_2, %cst_3: minus infinity. -/
def negInf0 : FVec Ideal S_ .f32 := constant (F := Ideal) S_ .f32 0xFF800000#32
/-- %17: the exponentials of the logits less their maximum. -/
def smNum (wt : FVec Ideal S3 .f32) : FVec Ideal S3 .f32 :=
  Host.exp (subf wt (broadcastInDim S3 ![0] bcast_S1_S3_0 (broadcastInDim S1 ![] bcast_S_S1
    (maximumf negInf0 (Host.reduce FloatOps.maximumf wt negInf0 reducesTo_S3_S_d0 h_S_)))))
/-- %21: the exponentials over their sum. -/
def smW (wt : FVec Ideal S3 .f32) : FVec Ideal S3 .f32 :=
  Host.divf (smNum wt) (broadcastInDim S3 ![0] bcast_S1_S3_0 (broadcastInDim S1 ![] bcast_S_S1
    (Host.reduceAdd (smNum wt) zero0 reducesTo_S3_S_d0 h_S_)))

/-! ## One window (%24 … %46 for the first) -/

/-- %22: the time step of each position. -/
def steps : IVec S4096 32 := iotaInDim S4096 32 0
/-- %29: the window's mask: 1 where `lo ≤ t < hi` as signed words, else 0. -/
def maskV (lo hi : BitVec 32) : FVec Ideal S4096 .f32 :=
  uitofp .f32 (andi (cmpi .sge steps (broadcastInDim S4096 ![] bcast_S_S4096 (constantI S_ 32 lo)))
    (cmpi .slt steps (broadcastInDim S4096 ![] bcast_S_S4096 (constantI S_ 32 hi))))
/-- %41: the mask at every batch and feature. -/
def maskB (lo hi : BitVec 32) : FVec Ideal S32x4096x256 .f32 :=
  broadcastInDim S32x4096x256 ![0, 1, 2] bcast_S1x4096x1_S32x4096x256_0_1_2
    (broadcastInDim S1x4096x1 ![1] bcast_S4096_S1x4096x1_1 (maskV lo hi))
/-- %34 / %39: one row of a [3, 256] array at every batch and time step. -/
def rowB (off : Fin S3x256.rank → Nat) (h : S3x256.Slices off S1x256) (g : FVec Ideal S3x256 .f32) :
    FVec Ideal S32x4096x256 .f32 :=
  broadcastInDim S32x4096x256 ![0, 1, 2] bcast_S1x1x256_S32x4096x256_0_1_2
    (broadcastInDim S1x1x256 ![2] bcast_S256_S1x1x256_2
      (shapeCast S256 (extractStridedSlice S1x256 off g h) shapeCasts_S1x256_S256))
/-- %45: one entry of the softmax at every position. -/
def wB (off : Fin S3.rank → Nat) (h : S3.Slices off S1) (w : FVec Ideal S3 .f32) : FVec Ideal S32x4096x256 .f32 :=
  broadcastInDim S32x4096x256 ![] bcast_S_S32x4096x256 (shapeCast S_ (extractStridedSlice S1 off w h) shapeCasts_S1_S_)
/-- %46: the window's term: the weight times the masked affine map of the normalized rows. -/
def windowTerm (lo hi : BitVec 32) (off2 : Fin S3x256.rank → Nat) (h2 : S3x256.Slices off2 S1x256)
    (off1 : Fin S3.rank → Nat) (h1 : S3.Slices off1 S1)
    (x : FVec Ideal S32x4096x256 .f32) (g bt : FVec Ideal S3x256 .f32) (wt : FVec Ideal S3 .f32) :
    FVec Ideal S32x4096x256 .f32 :=
  mulf (wB off1 h1 (smW wt)) (mulf (addf (mulf (xhat x) (rowB off2 h2 g)) (rowB off2 h2 bt)) (maskB lo hi))

/-! ## The result -/

/-- %23: the zero array the sum over the windows starts from. -/
def zeroB : FVec Ideal S32x4096x256 .f32 := broadcastInDim S32x4096x256 ![] bcast_S_S32x4096x256 zero0

/-- %95: the value @main returns. -/
def refTerm (x : FVec Ideal S32x4096x256 .f32) (g bt : FVec Ideal S3x256 .f32) (wt : FVec Ideal S3 .f32) :
    FVec Ideal S32x4096x256 .f32 :=
  addf (addf (addf zeroB
      (windowTerm 2#32 4094#32 ![0, 0] slices_S3x256_S1x256_0_0 ![0] slices_S3_S1_0 x g bt wt))
      (windowTerm 5#32 4092#32 ![1, 0] slices_S3x256_S1x256_1_0 ![1] slices_S3_S1_1 x g bt wt))
      (windowTerm 10#32 4087#32 ![2, 0] slices_S3x256_S1x256_2_0 ![2] slices_S3_S1_2 x g bt wt)

end Cert.ReferenceIdeal.RefValue

end
-- ==== Proof.RefRun.lean ====
/-
  The reference program's run, read back: every weakly fair execution of @main terminates, the result buffer holding
  `refTerm` of the argument arrays (the composed term of the operations' functions) and the argument arrays unchanged.
  The operations are read stretch by stretch: after each stretch, every buffer a later stretch reads holds the
  corresponding stage of `refTerm`.
-/
import proofs.«140669_j52630529245619_2_alg».proof.Proof.RefRunOps
import proofs.«140669_j52630529245619_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-! ## The buffers' contents, stretch by stretch

`val1 … val4`: the device's buffer contents after the first one … four stretches of operations, from any contents `V0`.
For every buffer a later stretch reads (and for the arguments and the result) one lemma states what it holds then, as a
term of the argument arrays: within a stretch each operation's result at its own buffer is its function's value, at any
other buffer what was there; across stretches the earlier lemmas are cited. -/

def val1 (V0 : Valuation τ sig (Elt Ideal)) : Valuation τ sig (Elt Ideal) := after opsA V0
def val2 (V0 : Valuation τ sig (Elt Ideal)) : Valuation τ sig (Elt Ideal) := after opsV (val1 V0)
def val3 (V0 : Valuation τ sig (Elt Ideal)) : Valuation τ sig (Elt Ideal) := after opsB (val2 V0)
def val4 (V0 : Valuation τ sig (Elt Ideal)) : Valuation τ sig (Elt Ideal) := after opsC (val3 V0)

set_option maxRecDepth 8192 in
set_option maxHeartbeats 8000000 in
theorem val1_main_arg0 (V0 : Valuation τ sig (Elt Ideal)) : val1 V0 (no_index (Proc.devRef .tc main_arg0)) = (V0 (Proc.devRef .tc main_arg0)) := by
  unfold val1
  simp only [opsA]
  after_results_simp

set_option maxRecDepth 8192 in
set_option maxHeartbeats 8000000 in
theorem val1_main_arg1 (V0 : Valuation τ sig (Elt Ideal)) : val1 V0 (no_index (Proc.devRef .tc main_arg1)) = (V0 (Proc.devRef .tc main_arg1)) := by
  unfold val1
  simp only [opsA]
  after_results_simp

set_option maxRecDepth 8192 in
set_option maxHeartbeats 8000000 in
theorem val1_main_arg2 (V0 : Valuation τ sig (Elt Ideal)) : val1 V0 (no_index (Proc.devRef .tc main_arg2)) = (V0 (Proc.devRef .tc main_arg2)) := by
  unfold val1
  simp only [opsA]
  after_results_simp

set_option maxRecDepth 8192 in
set_option maxHeartbeats 8000000 in
theorem val1_main_arg3 (V0 : Valuation τ sig (Elt Ideal)) : val1 V0 (no_index (Proc.devRef .tc main_arg3)) = (V0 (Proc.devRef .tc main_arg3)) := by
  unfold val1
  simp only [opsA]
  after_results_simp

set_option maxRecDepth 8192 in
set_option maxHeartbeats 8000000 in
theorem val1_main_v3 (V0 : Valuation τ sig (Elt Ideal)) : val1 V0 (no_index (Proc.devRef .tc main_v3)) = mean1 (V0 (Proc.devRef .tc main_arg0)) := by
  unfold val1
  simp only [opsA]
  after_results_simp
  try rfl

set_option maxRecDepth 8192 in
set_option maxHeartbeats 8000000 in
theorem val1_main_c (V0 : Valuation τ sig (Elt Ideal)) : val1 V0 (no_index (Proc.devRef .tc main_c)) = constantI S_ 32 0#32 := by
  unfold val1
  simp only [opsA]
  after_results_simp
  try rfl

set_option maxRecDepth 8192 in
set_option maxHeartbeats 8000000 in
theorem val2_main_arg0 (V0 : Valuation τ sig (Elt Ideal)) : val2 V0 (no_index (Proc.devRef .tc main_arg0)) = (V0 (Proc.devRef .tc main_arg0)) := by
  unfold val2
  simp only [opsV]
  after_results_simp
  simp only [val1_main_arg0, val1_main_arg1, val1_main_arg2, val1_main_arg3, val1_main_v3, val1_main_c]

set_option maxRecDepth 8192 in
set_option maxHeartbeats 8000000 in
theorem val2_main_arg1 (V0 : Valuation τ sig (Elt Ideal)) : val2 V0 (no_index (Proc.devRef .tc main_arg1)) = (V0 (Proc.devRef .tc main_arg1)) := by
  unfold val2
  simp only [opsV]
  after_results_simp
  simp only [val1_main_arg0, val1_main_arg1, val1_main_arg2, val1_main_arg3, val1_main_v3, val1_main_c]

set_option maxRecDepth 8192 in
set_option maxHeartbeats 8000000 in
theorem val2_main_arg2 (V0 : Valuation τ sig (Elt Ideal)) : val2 V0 (no_index (Proc.devRef .tc main_arg2)) = (V0 (Proc.devRef .tc main_arg2)) := by
  unfold val2
  simp only [opsV]
  after_results_simp
  simp only [val1_main_arg0, val1_main_arg1, val1_main_arg2, val1_main_arg3, val1_main_v3, val1_main_c]

set_option maxRecDepth 8192 in
set_option maxHeartbeats 8000000 in
theorem val2_main_arg3 (V0 : Valuation τ sig (Elt Ideal)) : val2 V0 (no_index (Proc.devRef .tc main_arg3)) = (V0 (Proc.devRef .tc main_arg3)) := by
  unfold val2
  simp only [opsV]
  after_results_simp
  simp only [val1_main_arg0, val1_main_arg1, val1_main_arg2, val1_main_arg3, val1_main_v3, val1_main_c]

set_option maxRecDepth 8192 in
set_option maxHeartbeats 8000000 in
theorem val2_main_v3 (V0 : Valuation τ sig (Elt Ideal)) : val2 V0 (no_index (Proc.devRef .tc main_v3)) = mean1 (V0 (Proc.devRef .tc main_arg0)) := by
  unfold val2
  simp only [opsV]
  after_results_simp
  simp only [val1_main_arg0, val1_main_arg1, val1_main_arg2, val1_main_arg3, val1_main_v3, val1_main_c]

set_option maxRecDepth 8192 in
set_option maxHeartbeats 8000000 in
theorem val2_main_v4 (V0 : Valuation τ sig (Elt Ideal)) : val2 V0 (no_index (Proc.devRef .tc main_v4)) = var1 (V0 (Proc.devRef .tc main_arg0)) := by
  unfold val2
  simp only [opsV]
  after_results_simp
  try simp only [val1_main_arg0, val1_main_arg1, val1_main_arg2, val1_main_arg3, val1_main_v3, val1_main_c]
  try rfl

set_option maxRecDepth 8192 in
set_option maxHeartbeats 8000000 in
theorem val3_main_arg0 (V0 : Valuation τ sig (Elt Ideal)) : val3 V0 (no_index (Proc.devRef .tc main_arg0)) = (V0 (Proc.devRef .tc main_arg0)) := by
  unfold val3
  simp only [opsB]
  after_results_simp
  simp only [val2_main_arg0, val2_main_arg1, val2_main_arg2, val2_main_arg3, val2_main_v3, val2_main_v4]

set_option maxRecDepth 8192 in
set_option maxHeartbeats 8000000 in
theorem val3_main_arg1 (V0 : Valuation τ sig (Elt Ideal)) : val3 V0 (no_index (Proc.devRef .tc main_arg1)) = (V0 (Proc.devRef .tc main_arg1)) := by
  unfold val3
  simp only [opsB]
  after_results_simp
  simp only [val2_main_arg0, val2_main_arg1, val2_main_arg2, val2_main_arg3, val2_main_v3, val2_main_v4]

set_option maxRecDepth 8192 in
set_option maxHeartbeats 8000000 in
theorem val3_main_arg2 (V0 : Valuation τ sig (Elt Ideal)) : val3 V0 (no_index (Proc.devRef .tc main_arg2)) = (V0 (Proc.devRef .tc main_arg2)) := by
  unfold val3
  simp only [opsB]
  after_results_simp
  simp only [val2_main_arg0, val2_main_arg1, val2_main_arg2, val2_main_arg3, val2_main_v3, val2_main_v4]

set_option maxRecDepth 8192 in
set_option maxHeartbeats 8000000 in
theorem val3_main_arg3 (V0 : Valuation τ sig (Elt Ideal)) : val3 V0 (no_index (Proc.devRef .tc main_arg3)) = (V0 (Proc.devRef .tc main_arg3)) := by
  unfold val3
  simp only [opsB]
  after_results_simp
  simp only [val2_main_arg0, val2_main_arg1, val2_main_arg2, val2_main_arg3, val2_main_v3, val2_main_v4]

set_option maxRecDepth 8192 in
set_option maxHeartbeats 8000000 in
theorem val3_main_v11 (V0 : Valuation τ sig (Elt Ideal)) : val3 V0 (no_index (Proc.devRef .tc main_v11)) = xhat (V0 (Proc.devRef .tc main_arg0)) := by
  unfold val3
  simp only [opsB]
  after_results_simp
  try simp only [val2_main_arg0, val2_main_arg1, val2_main_arg2, val2_main_arg3, val2_main_v3, val2_main_v4]
  try rfl

set_option maxRecDepth 8192 in
set_option maxHeartbeats 8000000 in
theorem val3_main_v21 (V0 : Valuation τ sig (Elt Ideal)) : val3 V0 (no_index (Proc.devRef .tc main_v21)) = smW (V0 (Proc.devRef .tc main_arg3)) := by
  unfold val3
  simp only [opsB]
  after_results_simp
  try simp only [val2_main_arg0, val2_main_arg1, val2_main_arg2, val2_main_arg3, val2_main_v3, val2_main_v4]
  try rfl

set_option maxRecDepth 8192 in
set_option maxHeartbeats 8000000 in
theorem val3_main_v22 (V0 : Valuation τ sig (Elt Ideal)) : val3 V0 (no_index (Proc.devRef .tc main_v22)) = steps := by
  unfold val3
  simp only [opsB]
  after_results_simp
  try simp only [val2_main_arg0, val2_main_arg1, val2_main_arg2, val2_main_arg3, val2_main_v3, val2_main_v4]
  try rfl

set_option maxRecDepth 8192 in
set_option maxHeartbeats 8000000 in
theorem val3_main_v47 (V0 : Valuation τ sig (Elt Ideal)) : val3 V0 (no_index (Proc.devRef .tc main_v47)) = addf zeroB (windowTerm 2#32 4094#32 ![0, 0] slices_S3x256_S1x256_0_0 ![0] slices_S3_S1_0 (V0 (Proc.devRef .tc main_arg0)) (V0 (Proc.devRef .tc main_arg1)) (V0 (Proc.devRef .tc main_arg2)) (V0 (Proc.devRef .tc main_arg3))) := by
  unfold val3
  simp only [opsB]
  after_results_simp
  try simp only [val2_main_arg0, val2_main_arg1, val2_main_arg2, val2_main_arg3, val2_main_v3, val2_main_v4]
  try rfl

set_option maxRecDepth 8192 in
set_option maxHeartbeats 8000000 in
theorem val3_main_v48 (V0 : Valuation τ sig (Elt Ideal)) : val3 V0 (no_index (Proc.devRef .tc main_v48)) = broadcastInDim S4096 ![] bcast_S_S4096 (constantI S_ 32 5#32) := by
  unfold val3
  simp only [opsB]
  after_results_simp
  try simp only [val2_main_arg0, val2_main_arg1, val2_main_arg2, val2_main_arg3, val2_main_v3, val2_main_v4]
  try rfl

set_option maxRecDepth 8192 in
set_option maxHeartbeats 8000000 in
theorem val4_main_arg0 (V0 : Valuation τ sig (Elt Ideal)) : val4 V0 (no_index (Proc.devRef .tc main_arg0)) = (V0 (Proc.devRef .tc main_arg0)) := by
  unfold val4
  simp only [opsC]
  after_results_simp
  simp only [val3_main_arg0, val3_main_arg1, val3_main_arg2, val3_main_arg3, val3_main_v11, val3_main_v21, val3_main_v22, val3_main_v47, val3_main_v48]

set_option maxRecDepth 8192 in
set_option maxHeartbeats 8000000 in
theorem val4_main_arg1 (V0 : Valuation τ sig (Elt Ideal)) : val4 V0 (no_index (Proc.devRef .tc main_arg1)) = (V0 (Proc.devRef .tc main_arg1)) := by
  unfold val4
  simp only [opsC]
  after_results_simp
  simp only [val3_main_arg0, val3_main_arg1, val3_main_arg2, val3_main_arg3, val3_main_v11, val3_main_v21, val3_main_v22, val3_main_v47, val3_main_v48]

set_option maxRecDepth 8192 in
set_option maxHeartbeats 8000000 in
theorem val4_main_arg2 (V0 : Valuation τ sig (Elt Ideal)) : val4 V0 (no_index (Proc.devRef .tc main_arg2)) = (V0 (Proc.devRef .tc main_arg2)) := by
  unfold val4
  simp only [opsC]
  after_results_simp
  simp only [val3_main_arg0, val3_main_arg1, val3_main_arg2, val3_main_arg3, val3_main_v11, val3_main_v21, val3_main_v22, val3_main_v47, val3_main_v48]

set_option maxRecDepth 8192 in
set_option maxHeartbeats 8000000 in
theorem val4_main_arg3 (V0 : Valuation τ sig (Elt Ideal)) : val4 V0 (no_index (Proc.devRef .tc main_arg3)) = (V0 (Proc.devRef .tc main_arg3)) := by
  unfold val4
  simp only [opsC]
  after_results_simp
  simp only [val3_main_arg0, val3_main_arg1, val3_main_arg2, val3_main_arg3, val3_main_v11, val3_main_v21, val3_main_v22, val3_main_v47, val3_main_v48]

set_option maxRecDepth 8192 in
set_option maxHeartbeats 8000000 in
theorem val4_main_v95 (V0 : Valuation τ sig (Elt Ideal)) : val4 V0 (no_index (Proc.devRef .tc main_v95)) = refTerm (V0 (Proc.devRef .tc main_arg0)) (V0 (Proc.devRef .tc main_arg1)) (V0 (Proc.devRef .tc main_arg2)) (V0 (Proc.devRef .tc main_arg3)) := by
  unfold val4
  simp only [opsC]
  after_results_simp
  try simp only [val3_main_arg0, val3_main_arg1, val3_main_arg2, val3_main_arg3, val3_main_v11, val3_main_v21, val3_main_v22, val3_main_v47, val3_main_v48]
  try rfl

theorem after_ops (V0 : Valuation τ sig (Elt Ideal)) : after (ops (F := Ideal)) V0 = val4 V0 := by
  simp only [ops, after_app]
  rfl

/-- On every device, on the extended reals, from any memory with zero counters: every weakly fair execution of @main
    terminates with the result at `refTerm` of the argument arrays and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v95)
          = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v95).trans (by simp only [after_ops]; exact val4_main_v95 (launchContents m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c)),
      (h c main_arg3).trans (by simp only [after_ops]; exact val4_main_arg3 (launchContents m c))⟩)
    (run_seq scopedRefs_eq scopedSems_eq defs main (fun _ => ops) main_eq (fun _ => ops_sub) m ρ)

end Cert.ReferenceIdeal.RefValue

end
-- ==== Proof.RefReadVar.lean ====
/-
  The variance function's divisor and its positivity test, as scalars.

  The divisor is 256.0 minus the integer 0 read as a float: on the extended reals 256 - 0 = 256. The test asks whether
  the divisor is above 0.0, and 0 < 256, so it answers 1; the selection it guards therefore returns its first branch,
  the quotient.
-/
import proofs.«140669_j52630529245619_2_alg».proof.Proof.RefTerm
import proofs.«140669_j52630529245619_2_alg».proof.Proof.Spec
import Idealize.ShloMosaic.Lib.ValueIdx
import Idealize.ShloMosaic.Lib.IdealHost
import Idealize.ShloMosaic.Lib.ValueLayout
import Idealize.ShloMosaic.PureOps.Ideal.Laws

noncomputable section

namespace Cert.ReferenceIdeal.RefValue

open Cert.ReferenceIdeal Cert.ReferenceIdeal.Facts₀ Idealize.ShloMosaic Idealize.ShloMosaic.ValueIdx

/-- The pattern 0x43800000 denotes the real number 256. -/
theorem ofBits_256_f32 : Ideal.ofBits .f32 0x43800000#32 = ((256 : ℝ) : EReal) := by
  simp [Ideal.ofBits, Ideal.ieee, -EReal.coe_mul]; norm_num

/-- The integer 0 read as a float is 0. -/
theorem ddof_apply (j : S_.Idx) : ddof j = 0 := by
  show (((0#32 : BitVec 32).toInt : ℝ) : EReal) = 0
  simp

/-- The divisor: 256 - 0 = 256. -/
theorem nEff_apply (j : S_.Idx) : nEff j = Cert.LnAgg.n256 := by
  show n0 j - ddof j = Cert.LnAgg.n256
  rw [ddof_apply, sub_zero]
  rfl

/-- The positivity test answers 1, since 0 < 256. -/
theorem nPos_apply (j : S_.Idx) : nPos j = 1#1 := by
  show Ideal.cmp .ogt (nEff j) (Ideal.ofBits .f32 0x00000000#32) = 1#1
  rw [nEff_apply, Ideal.ofBits_zero_f32]
  have h : (0 : EReal) < Cert.LnAgg.n256 := by
    show (0 : EReal) < Ideal.ofBits .f32 0x43800000#32
    rw [ofBits_256_f32]
    exact EReal.coe_pos.mpr (by norm_num)
  unfold Ideal.cmp
  simp [h]

/-- The variance is the quotient: the guarded selection returns its first branch everywhere. -/
theorem var1_eq_varQ (x : FVec Ideal S32x4096x256 .f32) : var1 x = varQ x := by
  funext i
  show Scalar.select (broadcastInDim S32x4096x1 ![] bcast_S_S32x4096x1 nPos i) (varQ x i) (nanRows i) = varQ x i
  rw [broadcastInDim_scalar_apply, nPos_apply, select_one]

end Cert.ReferenceIdeal.RefValue

end
-- ==== Proof.RefReadMask.lean ====
/-
  The reference's window mask read at a time step: the program compares the time step, a 32-bit word counting from 0,
  with the window's two bounds as signed words, takes the conjunction of the two bits and converts it to a float. All
  three numbers are below 2³¹, where a word read as a signed integer is the number itself, so the bit is 1 exactly on
  `lo ≤ t < hi`, and the float is 1 there and 0 elsewhere.
-/
import proofs.«140669_j52630529245619_2_alg».proof.Proof.RefTerm
import proofs.«140669_j52630529245619_2_alg».proof.Proof.Spec
import Idealize.ShloMosaic.Lib.ValueIdx
import Idealize.ShloMosaic.Lib.IdealHost
import Idealize.ShloMosaic.Lib.ValueLayout
import Idealize.ShloMosaic.Lib.WordArith

noncomputable section

namespace Cert.ReferenceIdeal.RefValue

open Cert.ReferenceIdeal Cert.ReferenceIdeal.Facts₀ Idealize.ShloMosaic Idealize.ShloMosaic.ValueIdx

/-- A number below 2³¹, as a 32-bit word read signed, is the number. -/
theorem toInt_ofNat_of_lt (n : Nat) (h : n < 2 ^ 31) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The window mask at time step `t` is 1 on `lo ≤ t < hi` and 0 elsewhere. -/
theorem maskV_apply (lo hi : Nat) (hlo : lo < 2 ^ 31) (hhi : hi < 2 ^ 31) (t : Fin 4096) :
    maskV (BitVec.ofNat 32 lo) (BitVec.ofNat 32 hi) (ix1 t) = Cert.LnAgg.mask lo hi t := by
  have ht : t.val < 2 ^ 31 := by have := t.isLt; omega
  have hstep : maskV (BitVec.ofNat 32 lo) (BitVec.ofNat 32 hi) (ix1 t)
      = (((BitVec.ofBool ((BitVec.ofNat 32 lo).sle (BitVec.ofNat 32 t.val)
          && (BitVec.ofNat 32 t.val).slt (BitVec.ofNat 32 hi))).toNat : ℝ) : EReal) := by
    rw [← WordArith.andi_ofBool]; rfl
  have h1 : (BitVec.ofNat 32 lo).sle (BitVec.ofNat 32 t.val) = decide (lo ≤ t.val) := by
    simp only [BitVec.sle, toInt_ofNat_of_lt _ hlo, toInt_ofNat_of_lt _ ht, Nat.cast_le]
  have h2 : (BitVec.ofNat 32 t.val).slt (BitVec.ofNat 32 hi) = decide (t.val < hi) := by
    simp only [BitVec.slt, toInt_ofNat_of_lt _ ht, toInt_ofNat_of_lt _ hhi, Nat.cast_lt]
  rw [hstep, h1, h2]
  unfold Cert.LnAgg.mask Cert.LnAgg.maskN
  by_cases ha : lo ≤ t.val <;> by_cases hb : t.val < hi <;> simp [ha, hb]

/-- The mask at every batch and feature reads the mask of its time step: the two broadcasts copy it along the other axes. -/
theorem maskB_apply (lo hi : BitVec 32) (b : Fin 32) (t : Fin 4096) (f : Fin 256) :
    maskB lo hi (ix3 b t f) = maskV lo hi (ix1 t) := rfl

end Cert.ReferenceIdeal.RefValue

end
-- ==== Proof.RefRead.lean ====
/-
  The reference's composed term is the reference's arrangement of Spec.lean, index by index: each stage of
  RefTerm.lean read at an index (b, t, f). The layout operations (broadcasts along the axes, one row of the
  [3, 256] arrays, one entry of the softmax, the reshapes that drop a unit axis) only move an index; the row sums are
  the host's reduction over the feature axis from the initial value 0; the variance function's divisor 256.0 - 0 is
  256.0 and is positive, so its selection returns the quotient; the softmax is Spec's, the same operations.
-/
import proofs.«140669_j52630529245619_2_alg».proof.Proof.RefTerm
import proofs.«140669_j52630529245619_2_alg».proof.Proof.RefReadVar
import proofs.«140669_j52630529245619_2_alg».proof.Proof.RefReadMask
import proofs.«140669_j52630529245619_2_alg».proof.Proof.Spec
import Idealize.ShloMosaic.Lib.ValueIdx
import Idealize.ShloMosaic.Lib.ValueIdxCoords
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Facts₀ Idealize.ShloMosaic Idealize.ShloMosaic.ValueIdx
open scoped BigOperators

/-! ## The sum of a row over its features -/

/-- The reduction's shape fact in the form that names the inserted coordinate. -/
theorem hred3 : S32x4096x256.Reduces [2] S32x4096 := by decide

/-- The host's sum over the feature axis from the initial value 0, at row (b, t): the sum over the 256 features. -/
theorem reduce_row_apply (y : FVec Ideal S32x4096x256 .f32) (b : Fin 32) (t : Fin 4096) :
    Host.reduceAdd y zero0 reducesTo_S32x4096x256_S32x4096_d2 h_S_ (ix2 b t) = ∑ f : Fin 256, y (ix3 b t f) := by
  refine (hostReduceAdd_apply y zero0 reducesTo_S32x4096x256_S32x4096_d2 h_S_ (ix2 b t)).trans ?_
  refine (Ideal.hostReduceAdd_single reducesTo_S32x4096x256_S32x4096_d2 hred3 y _ (ix2 b t)).trans ?_
  have h0 : zero0 (Shape.Idx.first h_S_) = 0 := Ideal.ofBits_zero_f32
  rw [h0, zero_add]
  refine Finset.sum_congr rfl fun f _ => congrArg y ?_
  funext a
  match a with
  | ⟨0, _⟩ => rfl
  | ⟨1, _⟩ => rfl
  | ⟨2, _⟩ => rfl

/-! ## The broadcasts, read at an index -/

/-- [32, 4096] → [32, 4096, 1]. -/
theorem bc_rows1_apply {α : Type} (v : S32x4096.Idx → α) (b : Fin 32) (t : Fin 4096) (u : Fin 1) :
    broadcastInDim S32x4096x1 ![0, 1] bcast_S32x4096_S32x4096x1_0_1 v (ix3 b t u) = v (ix2 b t) :=
  broadcastInDim_apply _ _ _ _ _ (fun a => by
    match a with
    | ⟨0, _⟩ => rfl
    | ⟨1, _⟩ => rfl)

/-- [32, 4096, 1] → [32, 4096, 256]. -/
theorem bc_rowsB_apply {α : Type} (v : S32x4096x1.Idx → α) (b : Fin 32) (t : Fin 4096) (f : Fin 256) :
    broadcastInDim S32x4096x256 ![0, 1, 2] bcast_S32x4096x1_S32x4096x256_0_1_2 v (ix3 b t f) = v (ix3 b t (0 : Fin 1)) :=
  broadcastInDim_apply _ _ _ _ _ (fun a => by
    match a with
    | ⟨0, _⟩ => rfl
    | ⟨1, _⟩ => rfl
    | ⟨2, _⟩ => rfl)

/-- [1, 4096, 1] → [32, 4096, 256]. -/
theorem bc_stepsB_apply {α : Type} (v : S1x4096x1.Idx → α) (b : Fin 32) (t : Fin 4096) (f : Fin 256) :
    broadcastInDim S32x4096x256 ![0, 1, 2] bcast_S1x4096x1_S32x4096x256_0_1_2 v (ix3 b t f)
      = v (ix3 (0 : Fin 1) t (0 : Fin 1)) :=
  broadcastInDim_apply _ _ _ _ _ (fun a => by
    match a with
    | ⟨0, _⟩ => rfl
    | ⟨1, _⟩ => rfl
    | ⟨2, _⟩ => rfl)

/-- [4096] → [1, 4096, 1]. -/
theorem bc_steps1_apply {α : Type} (v : S4096.Idx → α) (u u' : Fin 1) (t : Fin 4096) :
    broadcastInDim S1x4096x1 ![1] bcast_S4096_S1x4096x1_1 v (ix3 u t u') = v (ix1 t) :=
  broadcastInDim_apply _ _ _ _ _ (fun a => by
    match a with
    | ⟨0, _⟩ => rfl)

/-- [1, 1, 256] → [32, 4096, 256]. -/
theorem bc_featB_apply {α : Type} (v : S1x1x256.Idx → α) (b : Fin 32) (t : Fin 4096) (f : Fin 256) :
    broadcastInDim S32x4096x256 ![0, 1, 2] bcast_S1x1x256_S32x4096x256_0_1_2 v (ix3 b t f)
      = v (ix3 (0 : Fin 1) (0 : Fin 1) f) :=
  broadcastInDim_apply _ _ _ _ _ (fun a => by
    match a with
    | ⟨0, _⟩ => rfl
    | ⟨1, _⟩ => rfl
    | ⟨2, _⟩ => rfl)

/-- [256] → [1, 1, 256]. -/
theorem bc_feat1_apply {α : Type} (v : S256.Idx → α) (u u' : Fin 1) (f : Fin 256) :
    broadcastInDim S1x1x256 ![2] bcast_S256_S1x1x256_2 v (ix3 u u' f) = v (ix1 f) :=
  broadcastInDim_apply _ _ _ _ _ (fun a => by
    match a with
    | ⟨0, _⟩ => rfl)

/-! ## One row of a [3, 256] array, one entry of a [3] array -/

/-- Row `i` of a [3, 256] array, sliced out, reshaped to [256] and broadcast to every batch and time step, reads
    the array at (i, f). -/
theorem rowB_apply (o : Nat) (h : S3x256.Slices ![o, 0] S1x256) (i : Fin 3) (hi : i.val = o)
    (g : FVec Ideal S3x256 .f32) (b : Fin 32) (t : Fin 4096) (f : Fin 256) :
    rowB ![o, 0] h g (ix3 b t f) = g (ix2 i f) := by
  unfold rowB
  refine (bc_featB_apply _ b t f).trans ?_
  refine (bc_feat1_apply _ _ _ f).trans ?_
  refine (shapeCast_1a_a_apply _ shapeCasts_S1x256_S256 f).trans ?_
  exact slice2_axis0_apply o g h (0 : Fin 1) f i (by rw [hi]; rfl)

/-- Entry `i` of a [3] array, sliced out, reshaped to a scalar and broadcast to every position, reads the array at i. -/
theorem wB_apply (o : Nat) (h : S3.Slices ![o] S1) (i : Fin 3) (hi : i.val = o)
    (w : FVec Ideal S3 .f32) (j : S32x4096x256.Idx) :
    wB ![o] h w j = w (ix1 i) := by
  unfold wB
  refine (broadcastInDim_scalar_apply bcast_S_S32x4096x256 _ j).trans ?_
  refine (shapeCast_apply _ shapeCasts_S1_S_ ix0 (ix1 (0 : Fin 1)) rfl).trans ?_
  exact extractStridedSlice_apply _ w h (ix1 (0 : Fin 1)) (ix1 i) (fun a => by
    match a with
    | ⟨0, _⟩ => exact hi.trans (Nat.add_zero o).symm)

/-! ## The row statistics -/

/-- %0 at row (b, t) is Spec's row sum. -/
theorem rowSum_apply (x : FVec Ideal S32x4096x256 .f32) (b : Fin 32) (t : Fin 4096) :
    rowSum x (ix2 b t) = Cert.LnAgg.rowSum x b t := reduce_row_apply x b t

/-- 256.0 at every row. -/
theorem nRows_apply (j : S32x4096x1.Idx) : nRows j = Cert.LnAgg.n256 :=
  broadcastInDim_scalar_apply bcast_S_S32x4096x1 _ j

/-- %3 at row (b, t) is Spec's mean. -/
theorem mean1_apply (x : FVec Ideal S32x4096x256 .f32) (b : Fin 32) (t : Fin 4096) (u : Fin 1) :
    mean1 x (ix3 b t u) = Cert.LnAgg.mean x b t := by
  show Ideal.div (rowSum1 x (ix3 b t u)) (nRows (ix3 b t u)) = _
  rw [nRows_apply]
  unfold rowSum1
  rw [bc_rows1_apply, rowSum_apply]
  rfl

/-- The mean at every feature of its row. -/
theorem meanB_apply (x : FVec Ideal S32x4096x256 .f32) (b : Fin 32) (t : Fin 4096) (f : Fin 256) :
    meanB x (ix3 b t f) = Cert.LnAgg.mean x b t :=
  (bc_rowsB_apply _ b t f).trans (mean1_apply x b t 0)

/-- The centred row is Spec's. -/
theorem cen_apply (x : FVec Ideal S32x4096x256 .f32) (b : Fin 32) (t : Fin 4096) (f : Fin 256) :
    cen x (ix3 b t f) = Cert.LnAgg.cen x b t f := by
  show x (ix3 b t f) - meanB x (ix3 b t f) = _
  rw [meanB_apply]
  rfl

/-- The sum of the squared deviations of row (b, t). -/
theorem sqSum_apply (x : FVec Ideal S32x4096x256 .f32) (b : Fin 32) (t : Fin 4096) :
    sqSum x (ix2 b t) = ∑ f : Fin 256, Cert.LnAgg.cen x b t f * Cert.LnAgg.cen x b t f := by
  refine (reduce_row_apply (sq x) b t).trans ?_
  refine Finset.sum_congr rfl fun f _ => ?_
  show cen x (ix3 b t f) * cen x (ix3 b t f) = _
  rw [cen_apply]

/-- The variance's divisor at every row is 256.0. -/
theorem nEffRows_apply (j : S32x4096x1.Idx) : nEffRows j = Cert.LnAgg.n256 :=
  (broadcastInDim_scalar_apply bcast_S_S32x4096x1 _ j).trans (nEff_apply _)

/-- The quotient is Spec's variance. -/
theorem varQ_apply (x : FVec Ideal S32x4096x256 .f32) (b : Fin 32) (t : Fin 4096) (u : Fin 1) :
    varQ x (ix3 b t u) = Cert.LnAgg.var x b t := by
  show Ideal.div (sqSum1 x (ix3 b t u)) (nEffRows (ix3 b t u)) = _
  rw [nEffRows_apply]
  unfold sqSum1
  rw [bc_rows1_apply, sqSum_apply]
  rfl

/-- The variance: the selection returns the quotient, the divisor being positive. -/
theorem var1_apply (x : FVec Ideal S32x4096x256 .f32) (b : Fin 32) (t : Fin 4096) (u : Fin 1) :
    var1 x (ix3 b t u) = Cert.LnAgg.var x b t := by
  show Scalar.select (broadcastInDim S32x4096x1 ![] bcast_S_S32x4096x1 nPos (ix3 b t u)) (varQ x (ix3 b t u))
    (nanRows (ix3 b t u)) = _
  rw [broadcastInDim_scalar_apply, nPos_apply, select_one, varQ_apply]

/-- ε at every row. -/
theorem epsRows_apply (j : S32x4096x1.Idx) : epsRows j = Cert.LnAgg.eps :=
  broadcastInDim_scalar_apply bcast_S_S32x4096x1 _ j

/-- The reciprocal square root of the variance plus ε. -/
theorem rstd1_apply (x : FVec Ideal S32x4096x256 .f32) (b : Fin 32) (t : Fin 4096) (u : Fin 1) :
    rstd1 x (ix3 b t u) = Ideal.rsqrt (Cert.LnAgg.var x b t + Cert.LnAgg.eps) := by
  show Ideal.rsqrt (var1 x (ix3 b t u) + epsRows (ix3 b t u)) = _
  rw [var1_apply, epsRows_apply]

/-- The normalized row is Spec's. -/
theorem xhat_apply (x : FVec Ideal S32x4096x256 .f32) (b : Fin 32) (t : Fin 4096) (f : Fin 256) :
    xhat x (ix3 b t f) = Cert.LnAgg.xhat x b t f := by
  show cen x (ix3 b t f) * rstdB x (ix3 b t f) = _
  unfold rstdB
  rw [cen_apply, bc_rowsB_apply, rstd1_apply]
  rfl

/-! ## The softmax, the masks, the zero array -/

/-- The softmax of the logits is Spec's: the same operations on the same shapes. -/
theorem smW_eq (wt : FVec Ideal S3 .f32) : smW wt = Cert.LnAgg.softmaxW wt := rfl

/-- The mask at every batch and feature, read against Spec's mask of the time step. -/
theorem maskB_read (lo hi : Nat) (hlo : lo < 2 ^ 31) (hhi : hi < 2 ^ 31) (b : Fin 32) (t : Fin 4096) (f : Fin 256) :
    maskB (BitVec.ofNat 32 lo) (BitVec.ofNat 32 hi) (ix3 b t f) = Cert.LnAgg.mask lo hi t := by
  unfold maskB
  rw [bc_stepsB_apply, bc_steps1_apply, maskV_apply lo hi hlo hhi]

/-- The zero array. -/
theorem zeroB_apply (j : S32x4096x256.Idx) : zeroB j = 0 :=
  (broadcastInDim_scalar_apply bcast_S_S32x4096x256 _ j).trans Ideal.ofBits_zero_f32

/-! ## One window, and the whole -/

/-- One window's term at (b, t, f): the softmax weight times the masked affine map of the normalized row. -/
theorem windowTerm_apply (lo hi : Nat) (hlo : lo < 2 ^ 31) (hhi : hi < 2 ^ 31) (o : Nat)
    (h2 : S3x256.Slices ![o, 0] S1x256) (h1 : S3.Slices ![o] S1) (i : Fin 3) (hi' : i.val = o)
    (x : FVec Ideal S32x4096x256 .f32) (g bt : FVec Ideal S3x256 .f32) (wt : FVec Ideal S3 .f32)
    (b : Fin 32) (t : Fin 4096) (f : Fin 256) :
    windowTerm (BitVec.ofNat 32 lo) (BitVec.ofNat 32 hi) ![o, 0] h2 ![o] h1 x g bt wt (ix3 b t f)
      = Cert.LnAgg.softmaxW wt (ix1 i)
        * ((Cert.LnAgg.xhat x b t f * g (ix2 i f) + bt (ix2 i f)) * Cert.LnAgg.mask lo hi t) := by
  show wB ![o] h1 (smW wt) (ix3 b t f) * ((xhat x (ix3 b t f) * rowB ![o, 0] h2 g (ix3 b t f)
    + rowB ![o, 0] h2 bt (ix3 b t f)) * maskB (BitVec.ofNat 32 lo) (BitVec.ofNat 32 hi) (ix3 b t f)) = _
  rw [wB_apply o h1 i hi', xhat_apply, rowB_apply o h2 i hi', rowB_apply o h2 i hi', maskB_read lo hi hlo hhi, smW_eq]

/-- The reference's composed term is Spec's reference arrangement. -/
theorem refTerm_eq (x : FVec Ideal S32x4096x256 .f32) (g bt : FVec Ideal S3x256 .f32) (wt : FVec Ideal S3 .f32) :
    refTerm x g bt wt = Cert.LnAgg.refArr x g bt (Cert.LnAgg.softmaxW wt) := by
  funext j
  obtain ⟨b, t, f, rfl⟩ : ∃ (b : Fin 32) (t : Fin 4096) (f : Fin 256), j = ix3 b t f := ⟨j 0, j 1, j 2, eq_ix3 j⟩
  show ((zeroB (ix3 b t f)
      + windowTerm 2#32 4094#32 ![0, 0] slices_S3x256_S1x256_0_0 ![0] slices_S3_S1_0 x g bt wt (ix3 b t f))
      + windowTerm 5#32 4092#32 ![1, 0] slices_S3x256_S1x256_1_0 ![1] slices_S3_S1_1 x g bt wt (ix3 b t f))
      + windowTerm 10#32 4087#32 ![2, 0] slices_S3x256_S1x256_2_0 ![2] slices_S3_S1_2 x g bt wt (ix3 b t f)
    = Cert.LnAgg.refOut x g bt (Cert.LnAgg.softmaxW wt) b t f
  rw [zeroB_apply,
    windowTerm_apply 2 4094 (by norm_num) (by norm_num) 0 slices_S3x256_S1x256_0_0 slices_S3_S1_0 0 rfl,
    windowTerm_apply 5 4092 (by norm_num) (by norm_num) 1 slices_S3x256_S1x256_1_0 slices_S3_S1_1 1 rfl,
    windowTerm_apply 10 4087 (by norm_num) (by norm_num) 2 slices_S3x256_S1x256_2_0 slices_S3_S1_2 2 rfl]
  rfl

end Cert.ReferenceIdeal.RefValue
end
-- ==== Proof.Algebra.lean ====
/-
  The kernel's arrangement and the reference's arrangement are one function when every input is finite.

  On the extended reals distributivity fails at the infinities, so the proof first shows that every quantity the two
  arrangements combine is a real number: the softmax weights (a quotient of a positive real by a positive real), the
  normalized row (a real deviation times the reciprocal square root of a POSITIVE real: a mean of squares, which is not
  negative, plus the positive ε), the masks (0 or 1), and the affine coefficients γ, β by hypothesis. Between real
  numbers the two arrangements are one polynomial identity.
-/
import proofs.«140669_j52630529245619_2_alg».proof.Proof.Spec
import Idealize.ShloMosaic.PureOps.Ideal.Laws
import Idealize.ShloMosaic.Lib.ValueIdx

noncomputable section

namespace Cert.LnAgg

open Idealize.ShloMosaic Idealize.ShloMosaic.ValueIdx

namespace Alg

/-! ## Real numbers inside the extended reals -/

theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb; exact ⟨p + q, (EReal.coe_add p q).symm⟩

theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb; exact ⟨p - q, (EReal.coe_sub p q).symm⟩

theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb; exact ⟨p * q, (EReal.coe_mul p q).symm⟩

/-- The coercion of a finite sum of reals is the sum of the coercions. -/
theorem coe_sum_real {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [← coe_sum_real]; exact Finset.sum_congr rfl fun i _ => hg i⟩

/-- A real divided by a real that is not zero is a real (the quotient's junk values sit at a zero divisor only). -/
theorem real_div {a : EReal} (ha : ∃ r : ℝ, a = (r : EReal)) {y : ℝ} (hy : y ≠ 0) :
    ∃ r : ℝ, Ideal.div a (y : EReal) = (r : EReal) := by
  obtain ⟨p, rfl⟩ := ha
  exact ⟨p * (1 / y), by rw [Ideal.div_coe hy, EReal.coe_mul]⟩

/-- The maximum of finitely many reals, at least one of them, taken from a start value below `⊤`, is a real. -/
theorem real_fold_max {ι : Type} (s : Finset ι) (f : ι → EReal) (hf : ∀ i, ∃ r : ℝ, f i = (r : EReal))
    (b : EReal) (hb : b < ⊤) (hs : s.Nonempty) : ∃ r : ℝ, s.fold max b f = (r : EReal) := by
  have h1 : s.fold max b f < ⊤ := (Finset.fold_max_lt ⊤).2 ⟨hb, fun i _ => by
    obtain ⟨r, hr⟩ := hf i; rw [hr]; exact EReal.coe_lt_top r⟩
  have h2 : ⊥ < s.fold max b f := by
    obtain ⟨i, hi⟩ := hs
    obtain ⟨r, hr⟩ := hf i
    exact (Finset.lt_fold_max ⊥).2 (Or.inr ⟨i, hi, by rw [hr]; exact EReal.bot_lt_coe r⟩)
  exact ⟨_, (EReal.coe_toReal h1.ne h2.ne').symm⟩

/-! ## The literals -/

/-- The divisor `256.0` denotes the real 256. -/
theorem n256_eq : n256 = ((256 : ℝ) : EReal) := by
  unfold n256
  simp [Ideal.ofBits, Ideal.ieee, -EReal.coe_mul]; norm_num

/-- The ε of the variance denotes a positive real (a dyadic rational near 1e-5). -/
theorem eps_real : ∃ e : ℝ, 0 < e ∧ eps = (e : EReal) := by
  unfold eps
  simp [Ideal.ofBits, Ideal.ieee, -EReal.coe_mul]

/-- The word of `-∞`, the start value of the maximum, denotes `⊥`. -/
theorem negInf_eq : Ideal.ofBits .f32 0xFF800000#32 = ⊥ := by
  simp [Ideal.ofBits, Ideal.ieee]

/-! ## The normalized row is real -/

section Rows

variable {T : Nat} (x : (⟨3, ![32, T, 256]⟩ : Shape).Idx → EReal) (hx : ∀ i, ∃ r : ℝ, x i = (r : EReal))
include hx

theorem rowSum_real (b : Fin 32) (t : Fin T) : ∃ r : ℝ, rowSum x b t = (r : EReal) :=
  real_sum _ _ fun _ => hx _

theorem mean_real (b : Fin 32) (t : Fin T) : ∃ r : ℝ, mean x b t = (r : EReal) := by
  unfold mean; rw [n256_eq]; exact real_div (rowSum_real x hx b t) (by norm_num)

theorem cen_real (b : Fin 32) (t : Fin T) (f : Fin 256) : ∃ r : ℝ, cen x b t f = (r : EReal) :=
  real_sub (hx _) (mean_real x hx b t)

/-- The variance is a real that is not negative: a sum of squares over 256. -/
theorem var_real (b : Fin 32) (t : Fin T) : ∃ r : ℝ, 0 ≤ r ∧ var x b t = (r : EReal) := by
  choose c hc using cen_real x hx b t
  refine ⟨(∑ f : Fin 256, c f * c f) * (1 / 256),
    mul_nonneg (Finset.sum_nonneg fun f _ => mul_self_nonneg _) (by norm_num), ?_⟩
  have h1 : (∑ f : Fin 256, cen x b t f * cen x b t f) = ((∑ f : Fin 256, c f * c f : ℝ) : EReal) := by
    rw [← coe_sum_real]; exact Finset.sum_congr rfl fun f _ => by rw [hc f, EReal.coe_mul]
  unfold var
  rw [n256_eq, Ideal.div_coe (by norm_num), h1, EReal.coe_mul]

/-- So the normalized entry is a real: the variance plus ε is positive, where the reciprocal square root is finite. -/
theorem xhat_real (b : Fin 32) (t : Fin T) (f : Fin 256) : ∃ r : ℝ, xhat x b t f = (r : EReal) := by
  obtain ⟨c, hc⟩ := cen_real x hx b t f
  obtain ⟨v, hv0, hv⟩ := var_real x hx b t
  obtain ⟨e, he0, he⟩ := eps_real
  have hpos : 0 < v + e := by linarith
  refine ⟨c * (Real.sqrt (v + e))⁻¹, ?_⟩
  unfold xhat
  rw [hc, hv, he, ← EReal.coe_add, Ideal.rsqrt_coe, if_neg (not_lt.mpr hpos.le), if_neg hpos.ne', EReal.coe_mul]

end Rows

/-! ## The softmax weights are real -/

/-- A broadcast reads its operand somewhere, so it inherits any property every element of the operand has. -/
theorem broadcastInDim_all {s t : Shape} {dims : Fin s.rank → Fin t.rank} (h : s.BroadcastsInDim t dims)
    (v : s.Idx → EReal) (P : EReal → Prop) (hv : ∀ k, P (v k)) (j : t.Idx) : P (broadcastInDim t dims h v j) := by
  unfold broadcastInDim; exact hv _

section Softmax

variable (wt : FVec Ideal SW .f32) (hw : ∀ i, ∃ r : ℝ, wt i = (r : EReal))
include hw

/-- The largest logit is a real: a maximum of three reals from `-∞`. -/
theorem maxLogit_real (j : S0.Idx) :
    ∃ r : ℝ, Host.reduce FloatOps.maximumf wt (constant (F := Ideal) S0 .f32 0xFF800000#32) hred hnum j = (r : EReal) := by
  rw [Host.reduce_eq_fold]
  refine real_fold_max _ wt hw _ ?_ ⟨ix1 (0 : Fin 3), Finset.mem_filter.2 ⟨Finset.mem_univ _, funext fun a => a.elim0⟩⟩
  rw [constant_apply, negInf_eq]; exact bot_lt_top

/-- Each numerator `exp (wt - max wt)` is a positive real. -/
theorem softmaxNum_pos (i : SW.Idx) : ∃ r : ℝ, 0 < r ∧ softmaxNum wt i = (r : EReal) := by
  obtain ⟨p, hp⟩ := hw i
  obtain ⟨m, hm⟩ : ∃ m : ℝ, broadcastInDim SW ![0] hb13 (broadcastInDim SW1 ![] hb01
      (maximumf (constant (F := Ideal) S0 .f32 0xFF800000#32)
        (Host.reduce FloatOps.maximumf wt (constant (F := Ideal) S0 .f32 0xFF800000#32) hred hnum))) i = (m : EReal) :=
    broadcastInDim_all _ _ (fun z => ∃ m : ℝ, z = (m : EReal))
      (broadcastInDim_all _ _ (fun z => ∃ m : ℝ, z = (m : EReal)) fun k => by
        obtain ⟨r, hr⟩ := maxLogit_real wt hw k
        refine ⟨r, ?_⟩
        show max (Ideal.ofBits .f32 0xFF800000#32) _ = _
        rw [negInf_eq, hr]; exact max_eq_right bot_le) i
  refine ⟨Real.exp (p - m), Real.exp_pos _, ?_⟩
  show Ideal.exp (wt i - _) = _
  rw [hm, hp, ← EReal.coe_sub, Ideal.exp_coe]

/-- Their sum is a positive real. -/
theorem softmaxDen_pos (j : S0.Idx) :
    ∃ r : ℝ, 0 < r ∧ Host.reduceAdd (softmaxNum wt) (constant (F := Ideal) S0 .f32 0x00000000#32) hred hnum j = (r : EReal) := by
  choose g hg0 hg using softmaxNum_pos wt hw
  refine ⟨∑ i : SW.Idx, g i, Finset.sum_pos (fun i _ => hg0 i) ⟨ix1 (0 : Fin 3), Finset.mem_univ _⟩, ?_⟩
  show Ideal.hostReduceAdd hred (softmaxNum wt) (Ideal.ofBits .f32 0x00000000#32) j = _
  rw [Ideal.hostReduceAdd_total hred (fun b => b.elim0), Ideal.ofBits_zero_f32, zero_add, ← coe_sum_real]
  exact Finset.sum_congr rfl fun i _ => hg i

/-- So every softmax weight is a real. -/
theorem softmaxW_real (i : SW.Idx) : ∃ r : ℝ, softmaxW wt i = (r : EReal) := by
  obtain ⟨n, _, hn⟩ := softmaxNum_pos wt hw i
  obtain ⟨d, hd0, hd⟩ : ∃ d : ℝ, 0 < d ∧ broadcastInDim SW ![0] hb13 (broadcastInDim SW1 ![] hb01
      (Host.reduceAdd (softmaxNum wt) (constant (F := Ideal) S0 .f32 0x00000000#32) hred hnum)) i = (d : EReal) :=
    broadcastInDim_all _ _ (fun z => ∃ d : ℝ, 0 < d ∧ z = (d : EReal))
      (broadcastInDim_all _ _ (fun z => ∃ d : ℝ, 0 < d ∧ z = (d : EReal)) (softmaxDen_pos wt hw)) i
  have h : softmaxW wt i = Ideal.div (softmaxNum wt i) (d : EReal) := by rw [← hd]; rfl
  rw [h]
  exact real_div ⟨n, hn⟩ hd0.ne'

end Softmax

/-! ## The masks -/

theorem maskN_real (lo hi n : Nat) : ∃ r : ℝ, maskN lo hi n = (r : EReal) := by
  unfold maskN
  split
  · exact ⟨1, EReal.coe_one.symm⟩
  · exact ⟨0, EReal.coe_zero.symm⟩

/-! ## The two arrangements agree -/

/-- Between real numbers the two arrangements are one polynomial identity. -/
theorem arrange_real (X W0 W1 W2 G0 G1 G2 B0 B1 B2 m0 m1 m2 : ℝ) :
    (X : EReal) * (((0 + (m0 : EReal) * ((W0 : EReal) * (G0 : EReal))) + (m1 : EReal) * ((W1 : EReal) * (G1 : EReal)))
        + (m2 : EReal) * ((W2 : EReal) * (G2 : EReal)))
      + (((0 + (m0 : EReal) * ((W0 : EReal) * (B0 : EReal))) + (m1 : EReal) * ((W1 : EReal) * (B1 : EReal)))
        + (m2 : EReal) * ((W2 : EReal) * (B2 : EReal)))
    = ((0 + (W0 : EReal) * (((X : EReal) * (G0 : EReal) + (B0 : EReal)) * (m0 : EReal)))
        + (W1 : EReal) * (((X : EReal) * (G1 : EReal) + (B1 : EReal)) * (m1 : EReal)))
      + (W2 : EReal) * (((X : EReal) * (G2 : EReal) + (B2 : EReal)) * (m2 : EReal)) := by
  norm_cast
  ring

theorem kernelOut_eq_refOut (x : SX.Idx → EReal) (γ β : SG.Idx → EReal) (w : SW.Idx → EReal)
    (hx : ∀ i, ∃ r : ℝ, x i = (r : EReal)) (hγ : ∀ i, ∃ r : ℝ, γ i = (r : EReal)) (hβ : ∀ i, ∃ r : ℝ, β i = (r : EReal))
    (hw : ∀ i, ∃ r : ℝ, w i = (r : EReal)) (b : Fin 32) (t : Fin 4096) (f : Fin 256) :
    kernelOut x γ β w b t f = refOut x γ β w b t f := by
  obtain ⟨X, hX⟩ := xhat_real x hx b t f
  obtain ⟨W0, hW0⟩ := hw (ix1 0)
  obtain ⟨W1, hW1⟩ := hw (ix1 1)
  obtain ⟨W2, hW2⟩ := hw (ix1 2)
  obtain ⟨G0, hG0⟩ := hγ (ix2 0 f)
  obtain ⟨G1, hG1⟩ := hγ (ix2 1 f)
  obtain ⟨G2, hG2⟩ := hγ (ix2 2 f)
  obtain ⟨B0, hB0⟩ := hβ (ix2 0 f)
  obtain ⟨B1, hB1⟩ := hβ (ix2 1 f)
  obtain ⟨B2, hB2⟩ := hβ (ix2 2 f)
  obtain ⟨m0, hm0⟩ := maskN_real 2 4094 t.val
  obtain ⟨m1, hm1⟩ := maskN_real 5 4092 t.val
  obtain ⟨m2, hm2⟩ := maskN_real 10 4087 t.val
  unfold kernelOut refOut mask
  rw [hX, hW0, hW1, hW2, hG0, hG1, hG2, hB0, hB1, hB2, hm0, hm1, hm2]
  exact arrange_real X W0 W1 W2 G0 G1 G2 B0 B1 B2 m0 m1 m2

end Alg

/-- The kernel's arrangement and the reference's are one array when x, γ, β and the logits are finite. -/
theorem kernelArr_eq_refArr (x : SX.Idx → EReal) (γ β : SG.Idx → EReal) (wt : FVec Ideal SW .f32)
    (hx : ∀ i, ∃ r : ℝ, x i = (r : EReal)) (hγ : ∀ i, ∃ r : ℝ, γ i = (r : EReal)) (hβ : ∀ i, ∃ r : ℝ, β i = (r : EReal))
    (hw : ∀ i, ∃ r : ℝ, wt i = (r : EReal)) :
    kernelArr x γ β (softmaxW wt) = refArr x γ β (softmaxW wt) :=
  funext fun j => Alg.kernelOut_eq_refOut x γ β (softmaxW wt) hx hγ hβ (Alg.softmaxW_real wt hw) (j 0) (j 1) (j 2)

end Cert.LnAgg

end
-- ==== Proof.Finite.lean ====
/-
  From the precondition to "every input entry is a real number".

  The precondition says that, for each of the four argument arrays, the conjunction over all entries of |entry| < +∞ holds.
  On the extended reals |x| = max x (-x), and max x (-x) < ⊤ excludes both x = ⊤ and x = ⊥, so x is (the image of) a real.
-/
import proofs.«140669_j52630529245619_2_alg».proof.Defs
import proofs.«140669_j52630529245619_2_alg».proof.Proof.Gen.Pre_finite_inputs
import Idealize.ShloMosaic.Lib.ReduceAll
import Idealize.ShloMosaic.Lib.ValueIdx

noncomputable section

namespace Cert.Finite

open Idealize.ShloMosaic Idealize.SL.Sem

/-- The pattern 0x7F800000 denotes +∞. -/
theorem ofBits_inf : Ideal.ofBits .f32 0x7F800000#32 = ⊤ := by simp [Ideal.ofBits, Ideal.ieee]

/-- One entry: if the comparison |x| < +∞ answers 1, then x is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [ofBits_inf] at h
  unfold Ideal.cmp at h
  induction x using EReal.rec with
  | bot => simp at h
  | top => simp at h
  | coe r => exact ⟨r, rfl⟩

instance : Subsingleton Cert.Pre_finite_inputs.S_.Idx := ⟨fun a b => funext fun d => d.elim0⟩

/-- One array: if the conjunction over all entries of |entry| < +∞ is 1, every entry is a real number. -/
theorem all_real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf x) (broadcastInDim s ![] hb (constant (F := Ideal) Cert.Pre_finite_inputs.S_ .f32 0x7F800000#32)))
        init hr hu j = 1#1)
    (i : s.Idx) : ∃ r : ℝ, x i = (r : EReal) :=
  real_of_abs_lt_inf (x i) (Host.reduce_andi_all _ init hr hu j e i)

/-- The printed predicate, read back: if it answers 1, every entry of each of the four arrays is a real number. -/
theorem finite_of_fn [Cert.Pre_finite_inputs.Facts]
    (x : FVec Ideal Cert.Pre_finite_inputs.S32x4096x256 .f32) (g bt : FVec Ideal Cert.Pre_finite_inputs.S3x256 .f32)
    (wt : FVec Ideal Cert.Pre_finite_inputs.S3 .f32)
    (h : Cert.Pre_finite_inputs.fn (F := Ideal) x g bt wt = fun _ => 1#1) :
    (∀ i, ∃ r : ℝ, x i = (r : EReal)) ∧ (∀ i, ∃ r : ℝ, g i = (r : EReal))
      ∧ (∀ i, ∃ r : ℝ, bt i = (r : EReal)) ∧ (∀ i, ∃ r : ℝ, wt i = (r : EReal)) := by
  have h0 := congrFun h ValueIdx.ix0
  dsimp only [Cert.Pre_finite_inputs.fn, Cert.Pre_finite_inputs.fn_part1] at h0
  change IntOp.andi (IntOp.andi (IntOp.andi _ _) _) _ = 1#1 at h0
  obtain ⟨h123, h4⟩ := IntOp.andi_eq_one.1 h0
  obtain ⟨h12, h3⟩ := IntOp.andi_eq_one.1 h123
  obtain ⟨h1, h2⟩ := IntOp.andi_eq_one.1 h12
  exact ⟨fun i => all_real_of_all x _ _ _ _ _ h1 i, fun i => all_real_of_all g _ _ _ _ _ h2 i,
    fun i => all_real_of_all bt _ _ _ _ _ h3 i, fun i => all_real_of_all wt _ _ _ _ _ h4 i⟩

/-- The certificate's precondition gives: on every device, every entry of each argument array is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) :=
  finite_of_fn _ _ _ _ (h c)

end Cert.Finite

end
-- ==== Proof.lean ====
/-
  The certificate of the multi-window LayerNorm kernel against its reference.

  Both programs normalize every row of x over its 256 features (mean, biased variance, rsqrt (var + ε)) and then combine
  three windows k, each with its own scale row γ_k, shift row β_k, softmax weight w_k and time mask m_k:
      reference:  ∑_k  w_k · ((x̂ · γ_k + β_k) · m_k)
      kernel:     x̂ · (∑_k m_k · (w_k · γ_k)) + ∑_k m_k · (w_k · β_k)
  The kernel forms the six rows w_k·γ_k, w_k·β_k on the host, walks the time axis in 32 blocks of 128 steps and rebuilds
  the masks in each block from the block's position. The two arrangements are equal by distributivity, which on the
  extended reals holds where every factor is finite: this is what the precondition (all inputs finite) is used for.

  The parts:
    • the two kernel frames: the frame certificate of each printed kernel program (FrameKernel, FrameKernelIdeal);
    • the kernel's value: the body's arithmetic at one entry of a block (KernelPayload), the six host rows (KernelHost),
      and from the blocks to the whole output array (KernelValue): the output is `kernelArr` of the arguments;
    • the reference's value: its run (RefRun) ends at the composed term `refTerm` (RefTerm), which read index by index
      is `refArr` of the arguments (RefRead);
    • `kernelArr = refArr` on finite inputs (Algebra), and finiteness from the precondition (Finite).
  The idealization rewrote nothing, so `preserves` asks nothing.
-/
import proofs.«140669_j52630529245619_2_alg».proof.Defs
import proofs.«140669_j52630529245619_2_alg».proof.Proof.Gen.Kernel
import proofs.«140669_j52630529245619_2_alg».proof.Proof.Gen.KernelIdeal
import proofs.«140669_j52630529245619_2_alg».proof.Proof.Gen.ReferenceIdeal
import proofs.«140669_j52630529245619_2_alg».proof.Proof.Gen.Pre_finite_inputs
import proofs.«140669_j52630529245619_2_alg».proof.Proof.FrameKernel
import proofs.«140669_j52630529245619_2_alg».proof.Proof.FrameKernelIdeal
import proofs.«140669_j52630529245619_2_alg».proof.Proof.KernelValue
import proofs.«140669_j52630529245619_2_alg».proof.Proof.RefRun
import proofs.«140669_j52630529245619_2_alg».proof.Proof.RefRead
import proofs.«140669_j52630529245619_2_alg».proof.Proof.Algebra
import proofs.«140669_j52630529245619_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- The kernel's output array ends at `kernelArr` of the arguments, the reference's at `refArr` of arguments that agree
    with them; the inputs are finite, so the two arrangements are one array. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.RefValue.run m' ρ')
  obtain ⟨hx, hg, hb, hw⟩ := Cert.Finite.finite_of_pre m hpre c
  rw [Cert.ReferenceIdeal.RefValue.refTerm_eq, (hagree c).1, (hagree c).2.1, (hagree c).2.2.1, (hagree c).2.2.2]
  exact (Cert.LnAgg.kernelArr_eq_refArr _ _ _ _ hx hg hb hw).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
